-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x800000 : Shape := ⟨2, ![2, 800000]⟩
abbrev S800000 : Shape := ⟨1, ![800000]⟩
abbrev S50000x256 : Shape := ⟨2, ![50000, 256]⟩
abbrev S50000x9 : Shape := ⟨2, ![50000, 9]⟩
abbrev S768x256 : Shape := ⟨2, ![768, 256]⟩
abbrev S256 : Shape := ⟨1, ![256]⟩
abbrev S50x100 : Shape := ⟨2, ![50, 100]⟩
abbrev S128x100 : Shape := ⟨2, ![128, 100]⟩
abbrev S200x1 : Shape := ⟨2, ![200, 1]⟩
abbrev S1 : Shape := ⟨1, ![1]⟩
abbrev S256x9 : Shape := ⟨2, ![256, 9]⟩
abbrev S9 : Shape := ⟨1, ![9]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S50000x9 : S_.BroadcastsInDim S50000x9 (![] : Fin 0 → Fin S50000x9.rank)
  reducesTo_S50000x9_S_d0_1 : S50000x9.ReducesTo [0, 1] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S50x100 : S_.BroadcastsInDim S50x100 (![] : Fin 0 → Fin S50x100.rank)
  reducesTo_S50x100_S_d0_1 : S50x100.ReducesTo [0, 1] S_
  bcast_S_S128x100 : S_.BroadcastsInDim S128x100 (![] : Fin 0 → Fin S128x100.rank)
  reducesTo_S128x100_S_d0_1 : S128x100.ReducesTo [0, 1] S_
  bcast_S_S200x1 : S_.BroadcastsInDim S200x1 (![] : Fin 0 → Fin S200x1.rank)
  reducesTo_S200x1_S_d0_1 : S200x1.ReducesTo [0, 1] S_
  bcast_S_S1 : S_.BroadcastsInDim S1 (![] : Fin 0 → Fin S1.rank)
  reducesTo_S1_S_d0 : S1.ReducesTo [0] S_
  bcast_S_S256x9 : S_.BroadcastsInDim S256x9 (![] : Fin 0 → Fin S256x9.rank)
  reducesTo_S256x9_S_d0_1 : S256x9.ReducesTo [0, 1] S_
  bcast_S_S9 : S_.BroadcastsInDim S9 (![] : Fin 0 → Fin S9.rank)
  reducesTo_S9_S_d0 : S9.ReducesTo [0] S_

variable [Facts]

def fn_part4 {F : FTy → Type} [FloatOps F] (main_arg17 : FVec F S128x100 .f32) (main_arg18 : FVec F S200x1 .f32) (main_arg19 : FVec F S1 .f32) (main_v63 : IVec S_ 1) (main_v67 : IVec S_ 1) : IVec S_ 1 :=
  let main_v68 : IVec S_ 1 := andi main_v63 main_v67
  let main_v69 : FVec F S128x100 .f32 := Host.absf main_arg17
  let main_cst_26 : FVec F S_ .f32 := constant S_ .f32 0x7F800000#32
  let main_v70 : FVec F S128x100 .f32 := broadcastInDim S128x100 ![] bcast_S_S128x100 main_cst_26
  let main_v71 : IVec S128x100 1 := cmpf .olt main_v69 main_v70
  let main_c_27 : IVec S_ 1 := constantI S_ 1 1#1
  let main_v72 : IVec S_ 1 := (fun x v => Host.reduce IntOp.andi x v reducesTo_S128x100_S_d0_1 h_S_) main_v71 main_c_27
  let main_v73 : IVec S_ 1 := andi main_v68 main_v72
  let main_v74 : FVec F S200x1 .f32 := Host.absf main_arg18
  let main_cst_28 : FVec F S_ .f32 := constant S_ .f32 0x7F800000#32
  let main_v75 : FVec F S200x1 .f32 := broadcastInDim S200x1 ![] bcast_S_S200x1 main_cst_28
  let main_v76 : IVec S200x1 1 := cmpf .olt main_v74 main_v75
  let main_c_29 : IVec S_ 1 := constantI S_ 1 1#1
  let main_v77 : IVec S_ 1 := (fun x v => Host.reduce IntOp.andi x v reducesTo_S200x1_S_d0_1 h_S_) main_v76 main_c_29
  let main_v78 : IVec S_ 1 := andi main_v73 main_v77
  let main_v79 : FVec F S1 .f32 := Host.absf main_arg19
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg14 : FVec F S256x9 .f32) (main_arg15 : FVec F S9 .f32) (main_arg16 : FVec F S50x100 .f32) (main_arg17 : FVec F S128x100 .f32) (main_arg18 : FVec F S200x1 .f32) (main_arg19 : FVec F S1 .f32) (main_v48 : IVec S_ 1) (main_v49 : FVec F S256x9 .f32) (main_v50 : FVec F S256x9 .f32) : IVec S_ 1 :=
  let main_v51 : IVec S256x9 1 := cmpf .olt main_v49 main_v50
  let main_c_19 : IVec S_ 1 := constantI S_ 1 1#1
  let main_v52 : IVec S_ 1 := (fun x v => Host.reduce IntOp.andi x v reducesTo_S256x9_S_d0_1 h_S_) main_v51 main_c_19
  let main_v53 : IVec S_ 1 := andi main_v48 main_v52
  let main_v54 : FVec F S256x9 .f32 := Host.absf main_arg14
  let main_cst_20 : FVec F S_ .f32 := constant S_ .f32 0x7F800000#32
  let main_v55 : FVec F S256x9 .f32 := broadcastInDim S256x9 ![] bcast_S_S256x9 main_cst_20
  let main_v56 : IVec S256x9 1 := cmpf .olt main_v54 main_v55
  let main_c_21 : IVec S_ 1 := constantI S_ 1 1#1
  let main_v57 : IVec S_ 1 := (fun x v => Host.reduce IntOp.andi x v reducesTo_S256x9_S_d0_1 h_S_) main_v56 main_c_21
  let main_v58 : IVec S_ 1 := andi main_v53 main_v57
  let main_v59 : FVec F S9 .f32 := Host.absf main_arg15
  let main_cst_22 : FVec F S_ .f32 := constant S_ .f32 0x7F800000#32
  let main_v60 : FVec F S9 .f32 := broadcastInDim S9 ![] bcast_S_S9 main_cst_22
  let main_v61 : IVec S9 1 := cmpf .olt main_v59 main_v60
  let main_c_23 : IVec S_ 1 := constantI S_ 1 1#1
  let main_v62 : IVec S_ 1 := (fun x v => Host.reduce IntOp.andi x v reducesTo_S9_S_d0 h_S_) main_v61 main_c_23
  let main_v63 : IVec S_ 1 := andi main_v58 main_v62
  let main_v64 : FVec F S50x100 .f32 := Host.absf main_arg16
  let main_cst_24 : FVec F S_ .f32 := constant S_ .f32 0x7F800000#32
  let main_v65 : FVec F S50x100 .f32 := broadcastInDim S50x100 ![] bcast_S_S50x100 main_cst_24
  let main_v66 : IVec S50x100 1 := cmpf .olt main_v64 main_v65
  let main_c_25 : IVec S_ 1 := constantI S_ 1 1#1
  let main_v67 : IVec S_ 1 := (fun x v => Host.reduce IntOp.andi x v reducesTo_S50x100_S_d0_1 h_S_) main_v66 main_c_25
  fn_part4 (F := F) main_arg17 main_arg18 main_arg19 main_v63 main_v67

def fn_part2 {F : FTy → Type} [FloatOps F] (main_arg10 : FVec F S128x100 .f32) (main_arg11 : FVec F S200x1 .f32) (main_arg12 : FVec F S1 .f32) (main_arg13 : FVec F S256x9 .f32) (main_arg14 : FVec F S256x9 .f32) (main_arg15 : FVec F S9 .f32) (main_arg16 : FVec F S50x100 .f32) (main_arg17 : FVec F S128x100 .f32) (main_arg18 : FVec F S200x1 .f32) (main_arg19 : FVec F S1 .f32) (main_v33 : IVec S_ 1) : IVec S_ 1 :=
  let main_v34 : FVec F S128x100 .f32 := Host.absf main_arg10
  let main_cst_12 : FVec F S_ .f32 := constant S_ .f32 0x7F800000#32
  let main_v35 : FVec F S128x100 .f32 := broadcastInDim S128x100 ![] bcast_S_S128x100 main_cst_12
  let main_v36 : IVec S128x100 1 := cmpf .olt main_v34 main_v35
  let main_c_13 : IVec S_ 1 := constantI S_ 1 1#1
  let main_v37 : IVec S_ 1 := (fun x v => Host.reduce IntOp.andi x v reducesTo_S128x100_S_d0_1 h_S_) main_v36 main_c_13
  let main_v38 : IVec S_ 1 := andi main_v33 main_v37
  let main_v39 : FVec F S200x1 .f32 := Host.absf main_arg11
  let main_cst_14 : FVec F S_ .f32 := constant S_ .f32 0x7F800000#32
  let main_v40 : FVec F S200x1 .f32 := broadcastInDim S200x1 ![] bcast_S_S200x1 main_cst_14
  let main_v41 : IVec S200x1 1 := cmpf .olt main_v39 main_v40
  let main_c_15 : IVec S_ 1 := constantI S_ 1 1#1
  let main_v42 : IVec S_ 1 := (fun x v => Host.reduce IntOp.andi x v reducesTo_S200x1_S_d0_1 h_S_) main_v41 main_c_15
  let main_v43 : IVec S_ 1 := andi main_v38 main_v42
  let main_v44 : FVec F S1 .f32 := Host.absf main_arg12
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S256x9 .f32 := Host.absf main_arg13
  let main_cst_18 : FVec F S_ .f32 := constant S_ .f32 0x7F800000#32
  let main_v50 : FVec F S256x9 .f32 := broadcastInDim S256x9 ![] bcast_S_S256x9 main_cst_18
  fn_part3 (F := F) main_arg14 main_arg15 main_arg16 main_arg17 main_arg18 main_arg19 main_v48 main_v49 main_v50

def fn_part1 {F : FTy → Type} [FloatOps F] (main_arg7 : FVec F S768x256 .f32) (main_arg8 : FVec F S256 .f32) (main_arg9 : FVec F S50x100 .f32) (main_arg10 : FVec F S128x100 .f32) (main_arg11 : FVec F S200x1 .f32) (main_arg12 : FVec F S1 .f32) (main_arg13 : FVec F S256x9 .f32) (main_arg14 : FVec F S256x9 .f32) (main_arg15 : FVec F S9 .f32) (main_arg16 : FVec F S50x100 .f32) (main_arg17 : FVec F S128x100 .f32) (main_arg18 : FVec F S200x1 .f32) (main_arg19 : FVec F S1 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768x256 .f32 := Host.absf main_arg7
  let main_cst_6 : FVec F S_ .f32 := constant S_ .f32 0x7F800000#32
  let main_v20 : FVec F S768x256 .f32 := broadcastInDim S768x256 ![] bcast_S_S768x256 main_cst_6
  let main_v21 : IVec S768x256 1 := cmpf .olt main_v19 main_v20
  let main_c_7 : IVec S_ 1 := constantI S_ 1 1#1
  let main_v22 : IVec S_ 1 := (fun x v => Host.reduce IntOp.andi x v reducesTo_S768x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S50x100 .f32 := Host.absf main_arg9
  let main_cst_10 : FVec F S_ .f32 := constant S_ .f32 0x7F800000#32
  let main_v30 : FVec F S50x100 .f32 := broadcastInDim S50x100 ![] bcast_S_S50x100 main_cst_10
  let main_v31 : IVec S50x100 1 := cmpf .olt main_v29 main_v30
  let main_c_11 : IVec S_ 1 := constantI S_ 1 1#1
  let main_v32 : IVec S_ 1 := (fun x v => Host.reduce IntOp.andi x v reducesTo_S50x100_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_v33

def fn {F : FTy → Type} [FloatOps F] (main_arg0 : FVec F S50000x768 .f32) (main_arg1 : IVec S2x800000 32) (main_arg2 : IVec S800000 32) (main_arg3 : IVec S800000 32) (main_arg4 : FVec F S50000x256 .f32) (main_arg5 : FVec F S50000x9 .f32) (main_arg6 : FVec F S768x256 .f32) (main_arg7 : FVec F S768x256 .f32) (main_arg8 : FVec F S256 .f32) (main_arg9 : FVec F S50x100 .f32) (main_arg10 : FVec F S128x100 .f32) (main_arg11 : FVec F S200x1 .f32) (main_arg12 : FVec F S1 .f32) (main_arg13 : FVec F S256x9 .f32) (main_arg14 : FVec F S256x9 .f32) (main_arg15 : FVec F S9 .f32) (main_arg16 : FVec F S50x100 .f32) (main_arg17 : FVec F S128x100 .f32) (main_arg18 : FVec F S200x1 .f32) (main_arg19 : FVec F S1 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S50000x256 .f32 := Host.absf main_arg4
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S50000x9 .f32 := Host.absf main_arg5
  let main_cst_2 : FVec F S_ .f32 := constant S_ .f32 0x7F800000#32
  let main_v10 : FVec F S50000x9 .f32 := broadcastInDim S50000x9 ![] bcast_S_S50000x9 main_cst_2
  let main_v11 : IVec S50000x9 1 := cmpf .olt main_v9 main_v10
  let main_c_3 : IVec S_ 1 := constantI S_ 1 1#1
  let main_v12 : IVec S_ 1 := (fun x v => Host.reduce IntOp.andi x v reducesTo_S50000x9_S_d0_1 h_S_) main_v11 main_c_3
  let main_v13 : IVec S_ 1 := andi main_v8 main_v12
  let main_v14 : FVec F S768x256 .f32 := Host.absf main_arg6
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg7 main_arg8 main_arg9 main_arg10 main_arg11 main_arg12 main_arg13 main_arg14 main_arg15 main_arg16 main_arg17 main_arg18 main_arg19 main_v13 main_v16
-- ==== Kernel.lean ====
abbrev S50000x768 : Shape := ⟨2, ![50000, 768]⟩
abbrev S2x800000 : Shape := ⟨2, ![2, 800000]⟩
abbrev S800000 : Shape := ⟨1, ![800000]⟩
abbrev S50000x256 : Shape := ⟨2, ![50000, 256]⟩
abbrev S50000x9 : Shape := ⟨2, ![50000, 9]⟩
abbrev S768x256 : Shape := ⟨2, ![768, 256]⟩
abbrev S256 : Shape := ⟨1, ![256]⟩
abbrev S50x100 : Shape := ⟨2, ![50, 100]⟩
abbrev S128x100 : Shape := ⟨2, ![128, 100]⟩
abbrev S200x1 : Shape := ⟨2, ![200, 1]⟩
abbrev S1 : Shape := ⟨1, ![1]⟩
abbrev S256x9 : Shape := ⟨2, ![256, 9]⟩
abbrev S9 : Shape := ⟨1, ![9]⟩
abbrev S1x800000 : Shape := ⟨2, ![1, 800000]⟩
abbrev S2000x768 : Shape := ⟨2, ![2000, 768]⟩
abbrev S2000x256 : Shape := ⟨2, ![2000, 256]⟩
abbrev S100x1 : Shape := ⟨2, ![100, 1]⟩
abbrev S50x1 : Shape := ⟨2, ![50, 1]⟩
abbrev S128x1 : Shape := ⟨2, ![128, 1]⟩
abbrev S_ : Shape := ⟨0, ![]⟩
abbrev S800000x1 : Shape := ⟨2, ![800000, 1]⟩
abbrev S1x1 : Shape := ⟨2, ![1, 1]⟩
abbrev S800000x256 : Shape := ⟨2, ![800000, 256]⟩
abbrev S1x256 : Shape := ⟨2, ![1, 256]⟩
abbrev S2000x9 : Shape := ⟨2, ![2000, 9]⟩
abbrev S800000x9 : Shape := ⟨2, ![800000, 9]⟩
abbrev S1x9 : Shape := ⟨2, ![1, 9]⟩

abbrev nBuf : Space → Nat
  | .hbm => 131
  | .vmem => 30
  | .smem => 0
  | _ => 0

abbrev hbmTy0_0 (i : Nat) : BufTy := match i % 128 with
  | 0 => ⟨S50000x768, .f32⟩
  | 1 => ⟨S2x800000, .i32⟩
  | 2 => ⟨S800000, .i32⟩
  | 3 => ⟨S800000, .i32⟩
  | 4 => ⟨S50000x256, .f32⟩
  | 5 => ⟨S50000x9, .f32⟩
  | 6 => ⟨S768x256, .f32⟩
  | 7 => ⟨S768x256, .f32⟩
  | 8 => ⟨S256, .f32⟩
  | 9 => ⟨S50x100, .f32⟩
  | 10 => ⟨S128x100, .f32⟩
  | 11 => ⟨S200x1, .f32⟩
  | 12 => ⟨S1, .f32⟩
  | 13 => ⟨S256x9, .f32⟩
  | 14 => ⟨S256x9, .f32⟩
  | 15 => ⟨S9, .f32⟩
  | 16 => ⟨S50x100, .f32⟩
  | 17 => ⟨S128x100, .f32⟩
  | 18 => ⟨S200x1, .f32⟩
  | 19 => ⟨S1, .f32⟩
  | 20 => ⟨S1x800000, .i32⟩
  | 21 => ⟨S800000, .i32⟩
  | 22 => ⟨S1x800000, .i32⟩
  | 23 => ⟨S800000, .i32⟩
  | 24 => ⟨S50000x256, .bf16⟩
  | 25 => ⟨S50000x256, .f32⟩
  | 26 => ⟨S100x1, .f32⟩
  | 27 => ⟨S100x1, .f32⟩
  | 28 => ⟨S50x1, .f32⟩
  | 29 => ⟨S128x1, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x1, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x1, .f32⟩
  | 48 => ⟨S800000x1, .f32⟩
  | 49 => ⟨S1x1, .f32⟩
  | 50 => ⟨S800000x1, .f32⟩
  | 51 => ⟨S800000x1, .f32⟩
  | 52 => ⟨S800000x1, .f32⟩
  | 53 => ⟨S800000x1, .f32⟩
  | 54 => ⟨S_, .f32⟩
  | 55 => ⟨S800000x1, .f32⟩
  | 56 => ⟨S800000x1, .f32⟩
  | 57 => ⟨S_, .f32⟩
  | 58 => ⟨S800000x1, .f32⟩
  | 59 => ⟨S800000x1, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x256, .bf16⟩
  | 69 => ⟨S800000x256, .f32⟩
  | 70 => ⟨S800000x256, .f32⟩
  | 71 => ⟨S800000x256, .f32⟩
  | 72 => ⟨S_, .f32⟩
  | 73 => ⟨S50000x256, .f32⟩
  | 74 => ⟨S800000x1, .i32⟩
  | 75 => ⟨S50000x256, .f32⟩
  | 76 => ⟨S1x256, .f32⟩
  | 77 => ⟨S50000x9, .bf16⟩
  | 78 => ⟨S50000x9, .f32⟩
  | 79 => ⟨S100x1, .f32⟩
  | 80 => ⟨S100x1, .f32⟩
  | 81 => ⟨S50x1, .f32⟩
  | 82 => ⟨S128x1, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x1, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x1, .f32⟩
  | 101 => ⟨S800000x1, .f32⟩
  | 102 => ⟨S1x1, .f32⟩
  | 103 => ⟨S800000x1, .f32⟩
  | 104 => ⟨S800000x1, .f32⟩
  | 105 => ⟨S800000x1, .f32⟩
  | 106 => ⟨S800000x1, .f32⟩
  | 107 => ⟨S_, .f32⟩
  | 108 => ⟨S800000x1, .f32⟩
  | 109 => ⟨S800000x1, .f32⟩
  | 110 => ⟨S_, .f32⟩
  | 111 => ⟨S800000x1, .f32⟩
  | 112 => ⟨S800000x1, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x9, .bf16⟩
  | 122 => ⟨S800000x9, .f32⟩
  | 123 => ⟨S800000x9, .f32⟩
  | 124 => ⟨S800000x9, .f32⟩
  | 125 => ⟨S_, .f32⟩
  | 126 => ⟨S50000x9, .f32⟩
  | 127 => ⟨S800000x1, .i32⟩
  | _ => ⟨S50000x768, .f32⟩

abbrev hbmTy0_1 (i : Nat) : BufTy := match i % 128 with
  | 0 => ⟨S50000x9, .f32⟩
  | 1 => ⟨S1x9, .f32⟩
  | 2 => ⟨S50000x9, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | .local _ .vmem, ⟨0, _⟩ => ⟨S2000x768, .f32⟩
  | .local _ .vmem, ⟨1, _⟩ => ⟨S2000x768, .f32⟩
  | .local _ .vmem, ⟨2, _⟩ => ⟨S768x256, .f32⟩
  | .local _ .vmem, ⟨3, _⟩ => ⟨S768x256, .f32⟩
  | .local _ .vmem, ⟨4, _⟩ => ⟨S2000x256, .bf16⟩
  | .local _ .vmem, ⟨5, _⟩ => ⟨S2000x256, .bf16⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S1x256, .f32⟩
  | .local _ .vmem, ⟨13, _⟩ => ⟨S2000x256, .f32⟩
  | .local _ .vmem, ⟨14, _⟩ => ⟨S2000x256, .f32⟩
  | .local _ .vmem, ⟨15, _⟩ => ⟨S256x9, .f32⟩
  | .local _ .vmem, ⟨16, _⟩ => ⟨S256x9, .f32⟩
  | .local _ .vmem, ⟨17, _⟩ => ⟨S2000x9, .bf16⟩
  | .local _ .vmem, ⟨18, _⟩ => ⟨S2000x9, .bf16⟩
  | .local _ .vmem, ⟨19, _⟩ => ⟨S2000x9, .f32⟩
  | .local _ .vmem, ⟨20, _⟩ => ⟨S2000x9, .f32⟩
  | .local _ .vmem, ⟨21, _⟩ => ⟨S2000x9, .f32⟩
  | .local _ .vmem, ⟨22, _⟩ => ⟨S2000x9, .f32⟩
  | .local _ .vmem, ⟨23, _⟩ => ⟨S2000x9, .f32⟩
  | .local _ .vmem, ⟨24, _⟩ => ⟨S2000x9, .f32⟩
  | .local _ .vmem, ⟨25, _⟩ => ⟨S1x9, .f32⟩
  | .local _ .vmem, ⟨26, _⟩ => ⟨S2000x9, .f32⟩
  | .local _ .vmem, ⟨27, _⟩ => ⟨S2000x9, .f32⟩
  | .local _ .vmem, ⟨28, _⟩ => ⟨S2000x9, .f32⟩
  | .local _ .vmem, ⟨29, _⟩ => ⟨S2000x9, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4_0 : Ref sig .tc := ⟨.hbm, 24, rfl⟩
abbrev main_v4_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_c : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_1 : Ref sig .tc := ⟨.hbm, 39, rfl⟩
abbrev main_v16 : Ref sig .tc := ⟨.hbm, 40, rfl⟩
abbrev main_v17 : Ref sig .tc := ⟨.hbm, 41, rfl⟩
abbrev main_c_2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst : Ref sig .tc := ⟨.hbm, 54, rfl⟩
abbrev main_v29 : Ref sig .tc := ⟨.hbm, 55, rfl⟩
abbrev main_v30 : Ref sig .tc := ⟨.hbm, 56, rfl⟩
abbrev main_cst_3 : Ref sig .tc := ⟨.hbm, 57, rfl⟩
abbrev main_v31 : Ref sig .tc := ⟨.hbm, 58, rfl⟩
abbrev main_v32 : Ref sig .tc := ⟨.hbm, 59, rfl⟩
abbrev main_c_4 : Ref sig .tc := ⟨.hbm, 60, rfl⟩
abbrev main_v33 : Ref sig .tc := ⟨.hbm, 61, rfl⟩
abbrev main_v34 : Ref sig .tc := ⟨.hbm, 62, rfl⟩
abbrev main_c_5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_6 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47_0 : Ref sig .tc := ⟨.hbm, 77, rfl⟩
abbrev main_v47_1 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_7 : Ref sig .tc := ⟨.hbm, 83, rfl⟩
abbrev main_v52 : Ref sig .tc := ⟨.hbm, 84, rfl⟩
abbrev main_v53 : Ref sig .tc := ⟨.hbm, 85, rfl⟩
abbrev main_c_8 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c_9 : Ref sig .tc := ⟨.hbm, 92, rfl⟩
abbrev main_v59 : Ref sig .tc := ⟨.hbm, 93, rfl⟩
abbrev main_v60 : Ref sig .tc := ⟨.hbm, 94, rfl⟩
abbrev main_c_10 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_11 : Ref sig .tc := ⟨.hbm, 107, rfl⟩
abbrev main_v72 : Ref sig .tc := ⟨.hbm, 108, rfl⟩
abbrev main_v73 : Ref sig .tc := ⟨.hbm, 109, rfl⟩
abbrev main_cst_12 : Ref sig .tc := ⟨.hbm, 110, rfl⟩
abbrev main_v74 : Ref sig .tc := ⟨.hbm, 111, rfl⟩
abbrev main_v75 : Ref sig .tc := ⟨.hbm, 112, rfl⟩
abbrev main_c_13 : Ref sig .tc := ⟨.hbm, 113, rfl⟩
abbrev main_v76 : Ref sig .tc := ⟨.hbm, 114, rfl⟩
abbrev main_v77 : Ref sig .tc := ⟨.hbm, 115, rfl⟩
abbrev main_c_14 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_15 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x9 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x9 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x9 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x9 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x9 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x9 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x9 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x9 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x9 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  slices_S200x1_S100x1_0_0 : S200x1.Slices ![0, 0] S100x1
  slices_S200x1_S100x1_100_0 : S200x1.Slices ![100, 0] S100x1
  bcast_S_S800000 : S_.BroadcastsInDim S800000 (![] : Fin 0 → Fin S800000.rank)
  bcast_S800000_S800000x1_0 : S800000.BroadcastsInDim S800000x1 (![0] : Fin 1 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  natLt_1_32 : 1 < 32
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x9_S256x9_0_0 : ∀ a, (![0, 0] : Fin 2 → Nat) a + S256x9.size a ≤ S256x9.size a
  h_S256x9 : 0 < S256x9.numel
  inb_S2000x9_S2000x9_0_0 : ∀ a, (![0, 0] : Fin 2 → Nat) a + S2000x9.size a ≤ S2000x9.size a
  h_S2000x9 : 0 < S2000x9.numel
  packedbf16_S2000x9_S2000x9_0_0 : (Rect.unit (s := S2000x9) ![0, 0] S2000x9.size inb_S2000x9_S2000x9_0_0).PackedRows (EltTy.packing .bf16)
  bcast_S800000x1_S800000x9_0_1 : S800000x1.BroadcastsInDim S800000x9 (![0, 1] : Fin 2 → Fin S800000x9.rank)
  bcast_S_S50000x9 : S_.BroadcastsInDim S50000x9 (![] : Fin 0 → Fin S50000x9.rank)
  shapeCasts_S9_S1x9 : S9.ShapeCasts S1x9
  shapeCasts_S2000x9_S2000x9 : S2000x9.ShapeCasts S2000x9
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S2000x9 : S1x9.Broadcasts S2000x9
  dot_S2000x768_S768x256_S2000x256_1_0_0_1_n_n_wf : DotDims.WF S2000x768 S768x256 S2000x256 [1] [0] [0] [1] [] []
  dot_S50x100_S100x1_S50x1_1_0_0_1_n_n_wf : DotDims.WF S50x100 S100x1 S50x1 [1] [0] [0] [1] [] []
  dot_S128x100_S100x1_S128x1_1_0_0_1_n_n_wf : DotDims.WF S128x100 S100x1 S128x1 [1] [0] [0] [1] [] []
  gather_S50x1_S800000x1_S800000x1_1_0_n_n_0_1_11_wf : GatherDims.WF S50x1 S800000x1 S800000x1 [1] [0] [] [0] [] 1 ![1, 1]
  gather_S128x1_S800000x1_S800000x1_1_0_n_n_0_1_11_wf : GatherDims.WF S128x1 S800000x1 S800000x1 [1] [0] [] [0] [] 1 ![1, 1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x9_S2000x9_1_0_0_1_n_n_wf : DotDims.WF S2000x256 S256x9 S2000x9 [1] [0] [0] [1] [] []
  gather_S50000x9_S800000x1_S800000x9_1_0_n_n_0_1_19_wf : GatherDims.WF S50000x9 S800000x1 S800000x9 [1] [0] [] [0] [] 1 ![1, 9]
  scatter_S50000x9_S800000x1_S800000x9_1_0_0_1_wf : ScatterDims.WF S50000x9 S800000x1 S800000x9 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x256.size a ≤ S768x256.size a
  hwx0_2 : ∀ i : grid0.Coords, EltTy.bits .f32 = 32 ∨ (Rect.block (s := S768x256) S768x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x9.size a ≤ S256x9.size a
  hwx1_4 : ∀ i : grid1.Coords, EltTy.bits .f32 = 32 ∨ (Rect.block (s := S256x9) S256x9.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x9.size a ≤ S256x9.size a
  hwx1_5 : ∀ i : grid1.Coords, EltTy.bits .f32 = 32 ∨ (Rect.block (s := S256x9) S256x9.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x9.size a ≤ S50000x9.size a
  hwx1_6 : ∀ i : grid1.Coords, EltTy.bits .bf16 = 32 ∨ (Rect.block (s := S50000x9) S2000x9.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x9.size a ≤ S50000x9.size a
  hwx1_7 : ∀ i : grid1.Coords, EltTy.bits .f32 = 32 ∨ (Rect.block (s := S50000x9) S2000x9.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x9.size a ≤ S50000x9.size a
  hwx2_0 : ∀ i : grid2.Coords, EltTy.bits .f32 = 32 ∨ (Rect.block (s := S50000x9) S2000x9.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x9.size a ≤ S50000x9.size a
  hwx2_1 : ∀ i : grid2.Coords, EltTy.bits .f32 = 32 ∨ (Rect.block (s := S50000x9) S2000x9.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x9.size a ≤ S1x9.size a
  hwx2_2 : ∀ i : grid2.Coords, EltTy.bits .f32 = 32 ∨ (Rect.block (s := S1x9) S1x9.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x9.size a ≤ S50000x9.size a
  hwx2_3 : ∀ i : grid2.Coords, EltTy.bits .f32 = 32 ∨ (Rect.block (s := S50000x9) S2000x9.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x9.size a ≤ S50000x9.size a
  hwx2_4 : ∀ i : grid2.Coords, EltTy.bits .f32 = 32 ∨ (Rect.block (s := S50000x9) S2000x9.size (cc2_transform_4 i) (hinb2_4 i)).WholeWords (EltTy.packing .f32)

variable [Facts₀]

def dot_S2000x768_S768x256_S2000x256_1_0_0_1_n_n : DotDims S2000x768 S768x256 S2000x256 where
  lhsContracting := [1]
  rhsContracting := [0]
  lhsNonContracting := [0]
  rhsNonContracting := [1]
  lhsBatch := []
  rhsBatch := []
  wf := dot_S2000x768_S768x256_S2000x256_1_0_0_1_n_n_wf
def dot_S50x100_S100x1_S50x1_1_0_0_1_n_n : DotDims S50x100 S100x1 S50x1 where
  lhsContracting := [1]
  rhsContracting := [0]
  lhsNonContracting := [0]
  rhsNonContracting := [1]
  lhsBatch := []
  rhsBatch := []
  wf := dot_S50x100_S100x1_S50x1_1_0_0_1_n_n_wf
def dot_S128x100_S100x1_S128x1_1_0_0_1_n_n : DotDims S128x100 S100x1 S128x1 where
  lhsContracting := [1]
  rhsContracting := [0]
  lhsNonContracting := [0]
  rhsNonContracting := [1]
  lhsBatch := []
  rhsBatch := []
  wf := dot_S128x100_S100x1_S128x1_1_0_0_1_n_n_wf
def gather_S50x1_S800000x1_S800000x1_1_0_n_n_0_1_11 : GatherDims S50x1 S800000x1 S800000x1 where
  offsetDims := [1]
  collapsedSliceDims := [0]
  operandBatchingDims := []
  startIndicesBatchingDims := []
  startIndexMap := [0]
  indexVectorDim := 1
  sliceSizes := ![1, 1]
  wf := gather_S50x1_S800000x1_S800000x1_1_0_n_n_0_1_11_wf
def gather_S128x1_S800000x1_S800000x1_1_0_n_n_0_1_11 : GatherDims S128x1 S800000x1 S800000x1 where
  offsetDims := [1]
  collapsedSliceDims := [0]
  operandBatchingDims := []
  startIndicesBatchingDims := []
  startIndexMap := [0]
  indexVectorDim := 1
  sliceSizes := ![1, 1]
  wf := gather_S128x1_S800000x1_S800000x1_1_0_n_n_0_1_11_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x9_S2000x9_1_0_0_1_n_n : DotDims S2000x256 S256x9 S2000x9 where
  lhsContracting := [1]
  rhsContracting := [0]
  lhsNonContracting := [0]
  rhsNonContracting := [1]
  lhsBatch := []
  rhsBatch := []
  wf := dot_S2000x256_S256x9_S2000x9_1_0_0_1_n_n_wf
def gather_S50000x9_S800000x1_S800000x9_1_0_n_n_0_1_19 : GatherDims S50000x9 S800000x1 S800000x9 where
  offsetDims := [1]
  collapsedSliceDims := [0]
  operandBatchingDims := []
  startIndicesBatchingDims := []
  startIndexMap := [0]
  indexVectorDim := 1
  sliceSizes := ![1, 9]
  wf := gather_S50000x9_S800000x1_S800000x9_1_0_n_n_0_1_19_wf
def scatter_S50000x9_S800000x1_S800000x9_1_0_0_1 : ScatterDims S50000x9 S800000x1 S800000x9 where
  updateWindowDims := [1]
  insertedWindowDims := [0]
  scatterDimsToOperandDims := [0]
  indexVectorDim := 1
  wf := scatter_S50000x9_S800000x1_S800000x9_1_0_0_1_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S768x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v45) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S2000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S256x9.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S256x9.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47_0) S2000x9.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v47_1) S2000x9.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v88) S2000x9.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47_1) S2000x9.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v89) S1x9.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S2000x9.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v90) S2000x9.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x768 : Shape := ⟨2, ![50000, 768]⟩
abbrev S2x800000 : Shape := ⟨2, ![2, 800000]⟩
abbrev S800000 : Shape := ⟨1, ![800000]⟩
abbrev S50000x256 : Shape := ⟨2, ![50000, 256]⟩
abbrev S50000x9 : Shape := ⟨2, ![50000, 9]⟩
abbrev S768x256 : Shape := ⟨2, ![768, 256]⟩
abbrev S256 : Shape := ⟨1, ![256]⟩
abbrev S50x100 : Shape := ⟨2, ![50, 100]⟩
abbrev S128x100 : Shape := ⟨2, ![128, 100]⟩
abbrev S200x1 : Shape := ⟨2, ![200, 1]⟩
abbrev S1 : Shape := ⟨1, ![1]⟩
abbrev S256x9 : Shape := ⟨2, ![256, 9]⟩
abbrev S9 : Shape := ⟨1, ![9]⟩
abbrev S1x800000 : Shape := ⟨2, ![1, 800000]⟩
abbrev S_ : Shape := ⟨0, ![]⟩
abbrev S800000x1 : Shape := ⟨2, ![800000, 1]⟩
abbrev S800000x100 : Shape := ⟨2, ![800000, 100]⟩
abbrev S800000x200 : Shape := ⟨2, ![800000, 200]⟩
abbrev S1x1 : Shape := ⟨2, ![1, 1]⟩
abbrev S800000x256 : Shape := ⟨2, ![800000, 256]⟩
abbrev S1x256 : Shape := ⟨2, ![1, 256]⟩
abbrev S800000x9 : Shape := ⟨2, ![800000, 9]⟩
abbrev S1x9 : Shape := ⟨2, ![1, 9]⟩

abbrev nBuf : Space → Nat
  | .hbm => 150
  | .vmem => 0
  | .smem => 0
  | _ => 0

abbrev hbmTy0_0 (i : Nat) : BufTy := match i % 128 with
  | 0 => ⟨S50000x768, .f32⟩
  | 1 => ⟨S2x800000, .i32⟩
  | 2 => ⟨S800000, .i32⟩
  | 3 => ⟨S800000, .i32⟩
  | 4 => ⟨S50000x256, .f32⟩
  | 5 => ⟨S50000x9, .f32⟩
  | 6 => ⟨S768x256, .f32⟩
  | 7 => ⟨S768x256, .f32⟩
  | 8 => ⟨S256, .f32⟩
  | 9 => ⟨S50x100, .f32⟩
  | 10 => ⟨S128x100, .f32⟩
  | 11 => ⟨S200x1, .f32⟩
  | 12 => ⟨S1, .f32⟩
  | 13 => ⟨S256x9, .f32⟩
  | 14 => ⟨S256x9, .f32⟩
  | 15 => ⟨S9, .f32⟩
  | 16 => ⟨S50x100, .f32⟩
  | 17 => ⟨S128x100, .f32⟩
  | 18 => ⟨S200x1, .f32⟩
  | 19 => ⟨S1, .f32⟩
  | 20 => ⟨S1x800000, .i32⟩
  | 21 => ⟨S800000, .i32⟩
  | 22 => ⟨S1x800000, .i32⟩
  | 23 => ⟨S800000, .i32⟩
  | 24 => ⟨S_, .f32⟩
  | 25 => ⟨S50000x256, .f32⟩
  | 26 => ⟨S50000x256, .i1⟩
  | 27 => ⟨S50000x256, .f32⟩
  | 28 => ⟨S_, .f32⟩
  | 29 => ⟨S50000x256, .f32⟩
  | 30 => ⟨S50000x256, .f32⟩
  | 31 => ⟨S_, .f32⟩
  | 32 => ⟨S50000x9, .f32⟩
  | 33 => ⟨S50000x9, .i1⟩
  | 34 => ⟨S50000x9, .f32⟩
  | 35 => ⟨S_, .f32⟩
  | 36 => ⟨S50000x9, .f32⟩
  | 37 => ⟨S50000x9, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x100, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x100, .f32⟩
  | 56 => ⟨S800000x200, .f32⟩
  | 57 => ⟨S800000x1, .f32⟩
  | 58 => ⟨S1x1, .f32⟩
  | 59 => ⟨S800000x1, .f32⟩
  | 60 => ⟨S800000x1, .f32⟩
  | 61 => ⟨S800000x1, .f32⟩
  | 62 => ⟨S800000x1, .f32⟩
  | 63 => ⟨S_, .f32⟩
  | 64 => ⟨S800000x1, .f32⟩
  | 65 => ⟨S800000x1, .f32⟩
  | 66 => ⟨S_, .f32⟩
  | 67 => ⟨S800000x1, .f32⟩
  | 68 => ⟨S800000x1, .f32⟩
  | 69 => ⟨S50000x256, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x256, .f32⟩
  | 79 => ⟨S800000x256, .f32⟩
  | 80 => ⟨S800000x256, .f32⟩
  | 81 => ⟨S_, .f32⟩
  | 82 => ⟨S50000x256, .f32⟩
  | 83 => ⟨S800000x1, .i32⟩
  | 84 => ⟨S50000x256, .f32⟩
  | 85 => ⟨S50000x256, .f32⟩
  | 86 => ⟨S50000x256, .f32⟩
  | 87 => ⟨S1x256, .f32⟩
  | 88 => ⟨S50000x256, .f32⟩
  | 89 => ⟨S50000x256, .f32⟩
  | 90 => ⟨S50000x256, .f32⟩
  | 91 => ⟨S_, .f32⟩
  | 92 => ⟨S50000x256, .f32⟩
  | 93 => ⟨S50000x256, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x100, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x100, .f32⟩
  | 112 => ⟨S800000x200, .f32⟩
  | 113 => ⟨S800000x1, .f32⟩
  | 114 => ⟨S1x1, .f32⟩
  | 115 => ⟨S800000x1, .f32⟩
  | 116 => ⟨S800000x1, .f32⟩
  | 117 => ⟨S800000x1, .f32⟩
  | 118 => ⟨S800000x1, .f32⟩
  | 119 => ⟨S_, .f32⟩
  | 120 => ⟨S800000x1, .f32⟩
  | 121 => ⟨S800000x1, .f32⟩
  | 122 => ⟨S_, .f32⟩
  | 123 => ⟨S800000x1, .f32⟩
  | 124 => ⟨S800000x1, .f32⟩
  | 125 => ⟨S50000x9, .f32⟩
  | 126 => ⟨S_, .i32⟩
  | 127 => ⟨S800000, .i32⟩
  | _ => ⟨S50000x768, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x9, .f32⟩
  | 7 => ⟨S800000x9, .f32⟩
  | 8 => ⟨S800000x9, .f32⟩
  | 9 => ⟨S_, .f32⟩
  | 10 => ⟨S50000x9, .f32⟩
  | 11 => ⟨S800000x1, .i32⟩
  | 12 => ⟨S50000x9, .f32⟩
  | 13 => ⟨S50000x9, .f32⟩
  | 14 => ⟨S50000x9, .f32⟩
  | 15 => ⟨S1x9, .f32⟩
  | 16 => ⟨S50000x9, .f32⟩
  | 17 => ⟨S50000x9, .f32⟩
  | 18 => ⟨S50000x9, .f32⟩
  | 19 => ⟨S_, .f32⟩
  | 20 => ⟨S50000x9, .f32⟩
  | 21 => ⟨S50000x9, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_0 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_2 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_3 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_4 : Ref sig .tc := ⟨.hbm, 47, rfl⟩
abbrev main_v21 : Ref sig .tc := ⟨.hbm, 48, rfl⟩
abbrev main_v22 : Ref sig .tc := ⟨.hbm, 49, rfl⟩
abbrev main_c_5 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_6 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_8 : Ref sig .tc := ⟨.hbm, 70, rfl⟩
abbrev main_v40 : Ref sig .tc := ⟨.hbm, 71, rfl⟩
abbrev main_v41 : Ref sig .tc := ⟨.hbm, 72, rfl⟩
abbrev main_c_9 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_call0_cst : Ref sig .tc := ⟨.hbm, 91, rfl⟩
abbrev main_call0_v0 : Ref sig .tc := ⟨.hbm, 92, rfl⟩
abbrev main_v58 : Ref sig .tc := ⟨.hbm, 93, rfl⟩
abbrev main_c_11 : Ref sig .tc := ⟨.hbm, 94, rfl⟩
abbrev main_v59 : Ref sig .tc := ⟨.hbm, 95, rfl⟩
abbrev main_v60 : Ref sig .tc := ⟨.hbm, 96, rfl⟩
abbrev main_c_12 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_13 : Ref sig .tc := ⟨.hbm, 103, rfl⟩
abbrev main_v66 : Ref sig .tc := ⟨.hbm, 104, rfl⟩
abbrev main_v67 : Ref sig .tc := ⟨.hbm, 105, rfl⟩
abbrev main_c_14 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_15 : Ref sig .tc := ⟨.hbm, 119, rfl⟩
abbrev main_v80 : Ref sig .tc := ⟨.hbm, 120, rfl⟩
abbrev main_v81 : Ref sig .tc := ⟨.hbm, 121, rfl⟩
abbrev main_cst_16 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_17 : Ref sig .tc := ⟨.hbm, 126, rfl⟩
abbrev main_v85 : Ref sig .tc := ⟨.hbm, 127, rfl⟩
abbrev main_v86 : Ref sig .tc := ⟨.hbm, 128, rfl⟩
abbrev main_c_18 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_19 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_call1_cst : Ref sig .tc := ⟨.hbm, 147, rfl⟩
abbrev main_call1_v0 : Ref sig .tc := ⟨.hbm, 148, rfl⟩
abbrev main_v103 : Ref sig .tc := ⟨.hbm, 149, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x256 : S_.BroadcastsInDim S50000x256 (![] : Fin 0 → Fin S50000x256.rank)
  bcast_S_S50000x9 : S_.BroadcastsInDim S50000x9 (![] : Fin 0 → Fin S50000x9.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x100_S800000x100_S800000x200_d1 : Shape.Concatenates [S800000x100, S800000x100] S800000x200 1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x256_0_1 : S800000x1.BroadcastsInDim S800000x256 (![0, 1] : Fin 2 → Fin S800000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x9_0_1 : S800000x1.BroadcastsInDim S800000x9 (![0, 1] : Fin 2 → Fin S800000x9.rank)
  bcast_S9_S1x9_1 : S9.BroadcastsInDim S1x9 (![1] : Fin 1 → Fin S1x9.rank)
  bcast_S1x9_S50000x9_0_1 : S1x9.BroadcastsInDim S50000x9 (![0, 1] : Fin 2 → Fin S50000x9.rank)
  gather_S50x100_S800000x1_S800000x100_1_0_n_n_0_1_1100_wf : GatherDims.WF S50x100 S800000x1 S800000x100 [1] [0] [] [0] [] 1 ![1, 100]
  gather_S128x100_S800000x1_S800000x100_1_0_n_n_0_1_1100_wf : GatherDims.WF S128x100 S800000x1 S800000x100 [1] [0] [] [0] [] 1 ![1, 100]
  dot_S800000x200_S200x1_S800000x1_1_0_0_1_n_n_wf : DotDims.WF S800000x200 S200x1 S800000x1 [1] [0] [0] [1] [] []
  dot_S50000x768_S768x256_S50000x256_1_0_0_1_n_n_wf : DotDims.WF S50000x768 S768x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x9_S50000x9_1_0_0_1_n_n_wf : DotDims.WF S50000x256 S256x9 S50000x9 [1] [0] [0] [1] [] []
  gather_S50000x9_S800000x1_S800000x9_1_0_n_n_0_1_19_wf : GatherDims.WF S50000x9 S800000x1 S800000x9 [1] [0] [] [0] [] 1 ![1, 9]
  scatter_S50000x9_S800000x1_S800000x9_1_0_0_1_wf : ScatterDims.WF S50000x9 S800000x1 S800000x9 [1] [0] [0] 1

variable [Facts₀]

def gather_S50x100_S800000x1_S800000x100_1_0_n_n_0_1_1100 : GatherDims S50x100 S800000x1 S800000x100 where
  offsetDims := [1]
  collapsedSliceDims := [0]
  operandBatchingDims := []
  startIndicesBatchingDims := []
  startIndexMap := [0]
  indexVectorDim := 1
  sliceSizes := ![1, 100]
  wf := gather_S50x100_S800000x1_S800000x100_1_0_n_n_0_1_1100_wf
def gather_S128x100_S800000x1_S800000x100_1_0_n_n_0_1_1100 : GatherDims S128x100 S800000x1 S800000x100 where
  offsetDims := [1]
  collapsedSliceDims := [0]
  operandBatchingDims := []
  startIndicesBatchingDims := []
  startIndexMap := [0]
  indexVectorDim := 1
  sliceSizes := ![1, 100]
  wf := gather_S128x100_S800000x1_S800000x100_1_0_n_n_0_1_1100_wf
def dot_S800000x200_S200x1_S800000x1_1_0_0_1_n_n : DotDims S800000x200 S200x1 S800000x1 where
  lhsContracting := [1]
  rhsContracting := [0]
  lhsNonContracting := [0]
  rhsNonContracting := [1]
  lhsBatch := []
  rhsBatch := []
  wf := dot_S800000x200_S200x1_S800000x1_1_0_0_1_n_n_wf
def dot_S50000x768_S768x256_S50000x256_1_0_0_1_n_n : DotDims S50000x768 S768x256 S50000x256 where
  lhsContracting := [1]
  rhsContracting := [0]
  lhsNonContracting := [0]
  rhsNonContracting := [1]
  lhsBatch := []
  rhsBatch := []
  wf := dot_S50000x768_S768x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x9_S50000x9_1_0_0_1_n_n : DotDims S50000x256 S256x9 S50000x9 where
  lhsContracting := [1]
  rhsContracting := [0]
  lhsNonContracting := [0]
  rhsNonContracting := [1]
  lhsBatch := []
  rhsBatch := []
  wf := dot_S50000x256_S256x9_S50000x9_1_0_0_1_n_n_wf
def gather_S50000x9_S800000x1_S800000x9_1_0_n_n_0_1_19 : GatherDims S50000x9 S800000x1 S800000x9 where
  offsetDims := [1]
  collapsedSliceDims := [0]
  operandBatchingDims := []
  startIndicesBatchingDims := []
  startIndexMap := [0]
  indexVectorDim := 1
  sliceSizes := ![1, 9]
  wf := gather_S50000x9_S800000x1_S800000x9_1_0_n_n_0_1_19_wf
def scatter_S50000x9_S800000x1_S800000x9_1_0_0_1 : ScatterDims S50000x9 S800000x1 S800000x9 where
  updateWindowDims := [1]
  insertedWindowDims := [0]
  scatterDimsToOperandDims := [0]
  indexVectorDim := 1
  wf := scatter_S50000x9_S800000x1_S800000x9_1_0_0_1_wf

class Facts : Prop extends Facts₀ where

variable [Facts]
-- ==== Proof.KernelRun.lean ====
/-
  The idealized kernel's run with EVERY buffer named. The program is three pipelined regions among three stretches of
  host operations; the buffer contents at each boundary are a fold from the launch memory (a stretch rewrites the
  buffers its operations write, a region leaves in each of its arrays what its write-backs leave and keeps the rest).
  Every weakly fair execution terminates, nothing faulting, and each unscoped buffer of each core ends at the last
  fold's contents: the same launch over the same six segments as the frame claim's, with the final thread state read
  back at every buffer instead of at the argument arrays only.
-/
import proofs.«144004_j57767310131498_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault with each unscoped buffer `b` of
    each core `c` at the last boundary's contents `W6 m ρ c b`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Whole

end
-- ==== Proof.LibRowGatherScatter.lean ====
/-
  ROW GATHER AND ROW / VECTOR SCATTER-ADD, READ AT ONE ENTRY (general lemmas: any extents, any element type).

  A table `x : [N, C]` is gathered at `E` start indices `S : [E, 1]` (what `x[src]` lowers to): result row `e` is the
  table's row at `S[e, 0]`, the start index read as a signed integer and clamped into `[0, N − 1]` (`srcRow`):
      gather x S (e, k) = x (srcRow S e, k)                                            (`gather_row_apply`).
  `E` update rows `u : [E, C]` are scatter-added into `x : [N, C]` at scatter indices `D : [E, 1]` (what a segment sum
  lowers to): update row `e` lands on row `n` exactly when `D[e, 0]`, read as a signed integer and NOT clamped, is `n`
  (`Lands D e n`); an update whose index is negative or at least `N` lands nowhere. In exact (extended-real)
  arithmetic the result's entry is the operand's entry plus the sum, over the edges that land there, of their updates:
      scatterAdd x D u (n, k) = x (n, k) + ∑ e with Lands D e n, u (e, k)              (`scatterAdd_row_apply`),
  and the same for `E` scalars scatter-added into a vector `x : [N]` (a degree count):
      scatterAdd x D u (n)    = x (n)    + ∑ e with Lands D e n, u (e)                 (`scatterAdd_vec_apply`).

  The dimension numbers enter through the predicates `IsRowGather`, `IsRowScatter`, `IsVecScatter`, which say what
  the lists of a record are; at a literal record every field equation is `rfl`. Each lemma is first proved for the
  literal record (`rowGatherDims`, `rowScatterDims`, `vecScatterDims`: those lists with an arbitrary proof of their
  conditions) by computing the start, window and offset coordinates axis by axis; the scatter lemmas go through the
  characterisation of the landing index (`resultIdx?_rowDims`: update `(e, c)` lands on `(n, k)` iff `Lands D e n` and
  `c = k`; `resultIdx?_vecDims`: update `e` lands on `n` iff `Lands D e n`) and then re-index the sum over update
  multi-indices by the edge number.
-/
import Idealize.ShloMosaic.PureOps.Ideal
import Idealize.ShloMosaic.Lib.ValueIdx

noncomputable section

open scoped BigOperators

namespace Cert.RowGS

open Idealize.ShloMosaic Idealize.ShloMosaic.ValueIdx

variable {N E C w : Nat}

/-- The row an edge reads: its start index read as a signed integer and clamped into `[0, N − 1]`. -/
def srcRow (hN : 0 < N) (S : IVec ⟨2, ![E, 1]⟩ w) (e : Fin E) : Fin N :=
  ⟨min (S (ix2 e (0 : Fin 1))).toInt.toNat (N - 1), by omega⟩

/-- Edge `e`'s update lands on row `n`: its scatter index read as a signed integer is `n`. -/
abbrev Lands (D : IVec ⟨2, ![E, 1]⟩ w) (e : Fin E) (n : Fin N) : Prop :=
  (D (ix2 e (0 : Fin 1))).toInt = (n.val : Int)

/-- An axis of a rank-2 shape is the first or the second. -/
theorem fin2_cases (a : Fin 2) : a = 0 ∨ a = 1 := by
  match a with
  | ⟨0, _⟩ => exact Or.inl rfl
  | ⟨1, _⟩ => exact Or.inr rfl

/-! ## Gather of whole rows -/

/-- `g` gathers whole rows of an `[N, C]` table at `[E, 1]` start indices: the row axis is collapsed and is the one
    the start index addresses, the column axis is the one offset axis with the full slice `C`, nothing is batched. -/
structure IsRowGather (g : GatherDims ⟨2, ![N, C]⟩ ⟨2, ![E, 1]⟩ ⟨2, ![E, C]⟩) : Prop where
  od : g.offsetDims = [1]
  cs : g.collapsedSliceDims = [0]
  ob : g.operandBatchingDims = []
  sb : g.startIndicesBatchingDims = []
  sim : g.startIndexMap = [0]
  ivd : g.indexVectorDim = 1
  ss : g.sliceSizes = ![1, C]

/-- The row-gather dimension numbers as a literal record (any proof `wf` of their conditions). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather at the literal record, read at `(e, k)`. On the row axis the operand coordinate is the clamped start
    (no batching coordinate; the axis is collapsed, so no offset); on the column axis the start is `0` (the start
    index does not address it) and the offset coordinate is `k`. -/
theorem gather_rowDims_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (S : IVec ⟨2, ![E, 1]⟩ w) (e : Fin E) (k : Fin C) :
    Host.gather (rowGatherDims N E C wf) x S (ix2 e k) = x (ix2 (srcRow hN S e) k) := by
  unfold Host.gather
  congr 1
  funext a
  refine Fin.ext ?_
  show (rowGatherDims N E C wf).start (ix2 e k) S a + (rowGatherDims N E C wf).batchCoord (ix2 e k) a
    + (rowGatherDims N E C wf).offCoord (ix2 e k) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    -- the start index of result row `e` is read at `[e, 0]`
    have hsi : (rowGatherDims N E C wf).siIdx (ix2 e k)
        ⟨List.idxOf (0 : Fin 2) (rowGatherDims N E C wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowGatherDims N E C wf).startIndexMap from
      show (1 : Fin 2) ∉ ([0] : List (Fin 2)) from by decide)]
    unfold GatherDims.offCoord
    rw [dif_pos ((GatherDims.mem_sKept _ _).mpr
      ⟨show (1 : Fin 2) ∉ ([0] : List (Fin 2)) from by decide, List.not_mem_nil⟩)]
    simp only [Nat.add_zero, Nat.zero_add]
    rfl

/-- THE ROW GATHER READ AT `(e, k)`: the table at row `srcRow S e` (the start index `S[e, 0]`, read signed and clamped
    into `[0, N − 1]`), column `k`. -/
theorem gather_row_apply {α : Type} {g : GatherDims ⟨2, ![N, C]⟩ ⟨2, ![E, 1]⟩ ⟨2, ![E, C]⟩} (hg : IsRowGather g)
    (hN : 0 < N) (x : (⟨2, ![N, C]⟩ : Shape).Idx → α) (S : IVec ⟨2, ![E, 1]⟩ w) (e : Fin E) (k : Fin C) :
    Host.gather g x S (ix2 e k) = x (ix2 (srcRow hN S e) k) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_rowDims_apply hN wf x S e k

/-! ## Scatter-add of rows into an `[N, C]` array -/

/-- `d` scatters `[E, C]` update rows into an `[N, C]` operand at `[E, 1]` scatter indices: the row axis is the
    inserted one and the one the scatter index addresses, the column axis is the one window axis. -/
structure IsRowScatter (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  ivd : d.indexVectorDim = 1

/-- The row-scatter dimension numbers as a literal record (any proof `wf` of their conditions). -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis carries a window coordinate exactly when it is not an inserted axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

section RowScatter
variable (wf : ScatterDims.WF ⟨2, ![N, C]⟩ ⟨2, ![E, 1]⟩ ⟨2, ![E, C]⟩ [1] [0] [0] 1)
  (j : (⟨2, ![E, C]⟩ : Shape).Idx) (D : IVec ⟨2, ![E, 1]⟩ w)

/-- On the row axis the window of update `(e, c)` starts at the scatter index `D[e, 0]`, read signed … -/
theorem rowScatter_start0 :
    (rowScatterDims N E C wf).start j D (0 : Fin 2) = (D (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … on the column axis, which the scatter index does not address, at `0`. -/
theorem rowScatter_start1 : (rowScatterDims N E C wf).start j D (1 : Fin 2) = 0 := by
  unfold ScatterDims.start
  rw [dif_neg (show (1 : Fin 2) ∉ (rowScatterDims N E C wf).scatterDimsToOperandDims from
    show (1 : Fin 2) ∉ ([0] : List (Fin 2)) from by decide)]

/-- The row axis is inserted: no window coordinate there … -/
theorem rowScatter_window0 : (rowScatterDims N E C wf).window j (0 : Fin 2) = 0 := by
  unfold ScatterDims.window
  rw [dif_neg (fun h => (scatter_mem_sKept _ _).mp h (List.mem_singleton.mpr rfl))]

/-- … and on the column axis the window coordinate of update `(e, c)` is `c`. -/
theorem rowScatter_window1 : (rowScatterDims N E C wf).window j (1 : Fin 2) = (j 1).val := by
  unfold ScatterDims.window
  rw [dif_pos ((scatter_mem_sKept _ _).mpr (show (1 : Fin 2) ∉ ([0] : List (Fin 2)) from by decide))]
  rfl

/-- WHERE AN UPDATE LANDS: update `(e, c)` lands on `(n, k)` iff its scatter index, read signed, is `n` and `c = k`.
    (The landing index is start plus window coordinate on each axis, kept only when in range: on the row axis that
    is `D[e, 0] + 0`, in range iff it is some `n < N`; on the column axis `0 + c`, always in range.) -/
theorem resultIdx?_rowDims (i : (⟨2, ![N, C]⟩ : Shape).Idx) :
    (rowScatterDims N E C wf).resultIdx? j D = some i ↔ Lands D (j 0) (i 0) ∧ (j 1).val = (i 1).val := by
  have hs0 := rowScatter_start0 wf j D
  have hs1 := rowScatter_start1 wf j D
  have hw0 := rowScatter_window0 wf j
  have hw1 := rowScatter_window1 wf j
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hf := Option.some.inj h
      have e0 : ((rowScatterDims N E C wf).start j D (0 : Fin 2)
          + ((rowScatterDims N E C wf).window j (0 : Fin 2) : Int)).toNat = (i 0).val :=
        congrArg Fin.val (congrFun hf 0)
      have e1 : ((rowScatterDims N E C wf).start j D (1 : Fin 2)
          + ((rowScatterDims N E C wf).window j (1 : Fin 2) : Int)).toNat = (i 1).val :=
        congrArg Fin.val (congrFun hf 1)
      have c0 := (hc 0).1
      have c1 := (hc 1).1
      rw [hs0, hw0] at e0 c0
      rw [hs1, hw1] at e1 c1
      refine ⟨?_, ?_⟩
      · show (D (ix2 (j 0) (0 : Fin 1))).toInt = ((i 0).val : Int)
        omega
      · omega
    · cases h
  · rintro ⟨hl, h1⟩
    have hl' : (D (ix2 (j 0) (0 : Fin 1))).toInt = ((i 0).val : Int) := hl
    have hc : ∀ a, 0 ≤ (rowScatterDims N E C wf).start j D a + ((rowScatterDims N E C wf).window j a : Int) ∧
        (rowScatterDims N E C wf).start j D a + ((rowScatterDims N E C wf).window j a : Int)
          < ((⟨2, ![N, C]⟩ : Shape).size a : Int) := by
      intro a
      rcases fin2_cases a with rfl | rfl
      · rw [hs0, hw0, hl']
        show 0 ≤ ((i 0).val : Int) + ((0 : Nat) : Int) ∧ ((i 0).val : Int) + ((0 : Nat) : Int) < (N : Int)
        omega
      · rw [hs1, hw1]
        show (0 : Int) ≤ 0 + ((j 1).val : Int) ∧ (0 : Int) + ((j 1).val : Int) < (C : Int)
        omega
    rw [dif_pos hc]
    congr 1
    funext a
    refine Fin.ext ?_
    rcases fin2_cases a with rfl | rfl
    · show ((rowScatterDims N E C wf).start j D (0 : Fin 2)
          + ((rowScatterDims N E C wf).window j (0 : Fin 2) : Int)).toNat = (i 0).val
      rw [hs0, hw0, hl']
      omega
    · show ((rowScatterDims N E C wf).start j D (1 : Fin 2)
          + ((rowScatterDims N E C wf).window j (1 : Fin 2) : Int)).toNat = (i 1).val
      rw [hs1, hw1]
      omega

end RowScatter

section RowScatterSum
variable (wf : ScatterDims.WF ⟨2, ![N, C]⟩ ⟨2, ![E, 1]⟩ ⟨2, ![E, C]⟩ [1] [0] [0] 1)

/-- The row scatter-add at the literal record, read at `(n, k)`: the updates landing on `(n, k)` are the `(e, k)`
    with `Lands D e n`, and `(e, c) ↦ e`, `e ↦ (e, k)` are inverse bijections between the two index sets. -/
theorem scatterAdd_rowDims_apply {φ : FTy} (x : FVec Ideal ⟨2, ![N, C]⟩ φ) (D : IVec ⟨2, ![E, 1]⟩ w)
    (u : FVec Ideal ⟨2, ![E, C]⟩ φ) (n : Fin N) (k : Fin C) :
    Host.scatterAdd (rowScatterDims N E C wf) x D u (ix2 n k)
      = x (ix2 n k) + ∑ e ∈ Finset.univ.filter (fun e : Fin E => Lands D e n), u (ix2 e k) := by
  show Ideal.hostScatterAdd (rowScatterDims N E C wf) x D u (ix2 n k) = _
  unfold Ideal.hostScatterAdd
  congr 1
  refine Finset.sum_nbij' (fun j => (j 0 : Fin E)) (fun e => ix2 e k) ?_ ?_ ?_ ?_ ?_
  · intro j hj
    obtain ⟨a, b, rfl⟩ : ∃ a b, j = ix2 a b := ⟨_, _, eq_ix2 j⟩
    have h := (resultIdx?_rowDims wf (ix2 a b) D (ix2 n k)).mp (Finset.mem_filter.mp hj).2
    exact Finset.mem_filter.mpr ⟨Finset.mem_univ _, h.1⟩
  · intro e he
    have h : Lands D e n := (Finset.mem_filter.mp he).2
    exact Finset.mem_filter.mpr ⟨Finset.mem_univ _, (resultIdx?_rowDims wf (ix2 e k) D (ix2 n k)).mpr ⟨h, rfl⟩⟩
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl
  · intro e _
    rfl
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl

end RowScatterSum

/-- THE ROW SCATTER-ADD READ AT `(n, k)`: the operand's entry plus the sum, over the edges `e` whose scatter index
    (read signed, not clamped) is `n`, of the update entries `u (e, k)`. -/
theorem scatterAdd_row_apply {φ : FTy} {d : ScatterDims ⟨2, ![N, C]⟩ ⟨2, ![E, 1]⟩ ⟨2, ![E, C]⟩} (hd : IsRowScatter d)
    (x : FVec Ideal ⟨2, ![N, C]⟩ φ) (D : IVec ⟨2, ![E, 1]⟩ w) (u : FVec Ideal ⟨2, ![E, C]⟩ φ) (n : Fin N) (k : Fin C) :
    Host.scatterAdd d x D u (ix2 n k)
      = x (ix2 n k) + ∑ e ∈ Finset.univ.filter (fun e : Fin E => Lands D e n), u (ix2 e k) := by
  obtain ⟨uw, iw, sd, ivd, wf⟩ := d
  obtain ⟨h1, h2, h3, h4⟩ := hd
  dsimp only at h1 h2 h3 h4
  subst h1 h2 h3 h4
  exact scatterAdd_rowDims_apply wf x D u n k

/-! ## Scatter-add of scalars into an `[N]` vector -/

/-- `d` scatters `[E]` update scalars into an `[N]` operand at `[E, 1]` scatter indices: the operand's one axis is
    inserted and addressed by the scatter index; the updates have no window axis. -/
structure IsVecScatter (d : ScatterDims ⟨1, ![N]⟩ ⟨2, ![E, 1]⟩ ⟨1, ![E]⟩) : Prop where
  uw : d.updateWindowDims = []
  iw : d.insertedWindowDims = [0]
  sd : d.scatterDimsToOperandDims = [0]
  ivd : d.indexVectorDim = 1

/-- The vector-scatter dimension numbers as a literal record (any proof `wf` of their conditions). -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable (wf : ScatterDims.WF ⟨1, ![N]⟩ ⟨2, ![E, 1]⟩ ⟨1, ![E]⟩ [] [0] [0] 1)
  (j : (⟨1, ![E]⟩ : Shape).Idx) (D : IVec ⟨2, ![E, 1]⟩ w)

/-- The window of update `e` starts at the scatter index `D[e, 0]`, read signed … -/
theorem vecScatter_start0 :
    (vecScatterDims N E wf).start j D (0 : Fin 1) = (D (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and the operand's axis is inserted: no window coordinate. -/
theorem vecScatter_window0 : (vecScatterDims N E wf).window j (0 : Fin 1) = 0 := by
  unfold ScatterDims.window
  rw [dif_neg (fun h => (scatter_mem_sKept _ _).mp h (List.mem_singleton.mpr rfl))]

/-- WHERE AN UPDATE LANDS: update `e` lands on `n` iff its scatter index, read signed, is `n`. -/
theorem resultIdx?_vecDims (i : (⟨1, ![N]⟩ : Shape).Idx) :
    (vecScatterDims N E wf).resultIdx? j D = some i ↔ Lands D (j 0) (i 0) := by
  have hs0 := vecScatter_start0 wf j D
  have hw0 := vecScatter_window0 wf j
  have hi0 : (i 0).val < N := (i 0).isLt
  unfold ScatterDims.resultIdx?
  constructor
  · intro h
    split at h
    · rename_i hc
      have hf := Option.some.inj h
      have e0 : ((vecScatterDims N E wf).start j D (0 : Fin 1)
          + ((vecScatterDims N E wf).window j (0 : Fin 1) : Int)).toNat = (i 0).val :=
        congrArg Fin.val (congrFun hf 0)
      have c0 := (hc 0).1
      rw [hs0, hw0] at e0 c0
      show (D (ix2 (j 0) (0 : Fin 1))).toInt = ((i 0).val : Int)
      omega
    · cases h
  · intro hl
    have hl' : (D (ix2 (j 0) (0 : Fin 1))).toInt = ((i 0).val : Int) := hl
    have hc : ∀ a, 0 ≤ (vecScatterDims N E wf).start j D a + ((vecScatterDims N E wf).window j a : Int) ∧
        (vecScatterDims N E wf).start j D a + ((vecScatterDims N E wf).window j a : Int)
          < ((⟨1, ![N]⟩ : Shape).size a : Int) := by
      intro a
      obtain rfl : a = (0 : Fin 1) := Subsingleton.elim _ _
      rw [hs0, hw0, hl']
      show 0 ≤ ((i 0).val : Int) + ((0 : Nat) : Int) ∧ ((i 0).val : Int) + ((0 : Nat) : Int) < (N : Int)
      omega
    rw [dif_pos hc]
    congr 1
    funext a
    refine Fin.ext ?_
    obtain rfl : a = (0 : Fin 1) := Subsingleton.elim _ _
    show ((vecScatterDims N E wf).start j D (0 : Fin 1)
        + ((vecScatterDims N E wf).window j (0 : Fin 1) : Int)).toNat = (i 0).val
    rw [hs0, hw0, hl']
    omega

end VecScatter

section VecScatterSum
variable (wf : ScatterDims.WF ⟨1, ![N]⟩ ⟨2, ![E, 1]⟩ ⟨1, ![E]⟩ [] [0] [0] 1)

/-- The vector scatter-add at the literal record, read at `n`: an update index is its one coordinate, the edge
    number, and it lands on `n` iff `Lands D e n`. -/
theorem scatterAdd_vecDims_apply {φ : FTy} (x : FVec Ideal ⟨1, ![N]⟩ φ) (D : IVec ⟨2, ![E, 1]⟩ w)
    (u : FVec Ideal ⟨1, ![E]⟩ φ) (n : Fin N) :
    Host.scatterAdd (vecScatterDims N E wf) x D u (ix1 n)
      = x (ix1 n) + ∑ e ∈ Finset.univ.filter (fun e : Fin E => Lands D e n), u (ix1 e) := by
  show Ideal.hostScatterAdd (vecScatterDims N E wf) x D u (ix1 n) = _
  unfold Ideal.hostScatterAdd
  congr 1
  refine Finset.sum_nbij' (fun j => (j 0 : Fin E)) (fun e => ix1 e) ?_ ?_ ?_ ?_ ?_
  · intro j hj
    obtain ⟨a, rfl⟩ : ∃ a, j = ix1 a := ⟨_, eq_ix1 j⟩
    have h := (resultIdx?_vecDims wf (ix1 a) D (ix1 n)).mp (Finset.mem_filter.mp hj).2
    exact Finset.mem_filter.mpr ⟨Finset.mem_univ _, h⟩
  · intro e he
    have h : Lands D e n := (Finset.mem_filter.mp he).2
    exact Finset.mem_filter.mpr ⟨Finset.mem_univ _, (resultIdx?_vecDims wf (ix1 e) D (ix1 n)).mpr h⟩
  · intro j _
    obtain ⟨a, rfl⟩ : ∃ a, j = ix1 a := ⟨_, eq_ix1 j⟩
    rfl
  · intro e _
    rfl
  · intro j _
    obtain ⟨a, rfl⟩ : ∃ a, j = ix1 a := ⟨_, eq_ix1 j⟩
    rfl

end VecScatterSum

/-- THE VECTOR SCATTER-ADD READ AT `n`: the operand's entry plus the sum, over the edges `e` whose scatter index
    (read signed, not clamped) is `n`, of the update scalars `u (e)`. -/
theorem scatterAdd_vec_apply {φ : FTy} {d : ScatterDims ⟨1, ![N]⟩ ⟨2, ![E, 1]⟩ ⟨1, ![E]⟩} (hd : IsVecScatter d)
    (x : FVec Ideal ⟨1, ![N]⟩ φ) (D : IVec ⟨2, ![E, 1]⟩ w) (u : FVec Ideal ⟨1, ![E]⟩ φ) (n : Fin N) :
    Host.scatterAdd d x D u (ix1 n)
      = x (ix1 n) + ∑ e ∈ Finset.univ.filter (fun e : Fin E => Lands D e n), u (ix1 e) := by
  obtain ⟨uw, iw, sd, ivd, wf⟩ := d
  obtain ⟨h1, h2, h3, h4⟩ := hd
  dsimp only at h1 h2 h3 h4
  subst h1 h2 h3 h4
  exact scatterAdd_vecDims_apply wf x D u n

end Cert.RowGS

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.GateLaw.lean ====
/-
  THE EDGE GATE, COMPUTED TWO WAYS, IS ONE FUNCTION OF THE INPUTS (extended reals, no finiteness assumed).

  Inputs: two embedding tables `te : [50, 100]`, `de : [128, 100]`, a weight column `gw : [200, 1]`, a bias `gb : [1]`,
  and per edge `e < E` two integer indices `x2[e]`, `x3[e]`. An index is first normalised,
  `idx ↦ if idx < 0 then idx + size else idx`, and then used as the start index of a row gather, which reads it as a
  signed integer and clamps it into the table's rows: edge `e` reads row `r2(e)` of `te` and row `r3(e)` of `de`.
  The gate is `α[e] = 1 / (1 + exp (−z[e]))` with the pre-activation `z[e]` computed as

      joined :  z[e] = Σ_{k < 200} J[e, k] · gw[k] + gb,      J[e, ·] = te[r2(e), ·] followed by de[r3(e), ·]
      split  :  z[e] = P[r2(e)] + Q[r3(e)] + gb,              P[r] = Σ_{q < 100} te[r, q] · gw[q],
                                                              Q[r] = Σ_{q < 100} de[r, q] · gw[100 + q].

  The two agree: a sum over 200 indices is the sum over its first hundred plus the sum over its last hundred (a fact of
  commutative monoids, so it holds on the extended reals whatever the summands are); on the first hundred columns the
  joined row is the `te` row and on the last hundred the `de` row; and gathering row `r` of a table of row sums is the
  row sum of the gathered row, because the row an edge reads is the same function of its start index whatever the
  number of columns. Negation, exponential, adding one and dividing one by the result are then the same operations
  applied to equal arguments.
-/
import proofs.«144004_j57767310131498_2_alg».proof.KernelIdeal
import proofs.«144004_j57767310131498_2_alg».proof.Proof.Gen.KernelIdeal
import proofs.«144004_j57767310131498_2_alg».proof.Proof.Gen.ReferenceIdeal.Read
import proofs.«144004_j57767310131498_2_alg».proof.Proof.LibRowGatherScatter
import proofs.«144004_j57767310131498_2_alg».proof.Proof.LibPlainDot
import Idealize.ShloMosaic.Lib.ValueIdx
import Idealize.ShloMosaic.Lib.Pipeline.Value
import Idealize.ShloMosaic.PureOps.Ideal.Laws
import Mathlib.Algebra.BigOperators.Fin

noncomputable section

open scoped BigOperators

namespace Cert.Gate

open Idealize.ShloMosaic Idealize.ShloMosaic.ValueIdx

/-! ## General facts: a sum of 200 terms, a joined row, a gathered row sum -/

/-- A sum over 200 indices is the sum over the first hundred plus the sum over the last hundred. -/
theorem sum_two_hundred (f : Fin 200 → EReal) :
    ∑ k : Fin 200, f k = (∑ q : Fin 100, f (Fin.castAdd 100 q)) + ∑ q : Fin 100, f (Fin.natAdd 100 q) :=
  Fin.sum_univ_add (a := 100) (b := 100) f

section General
variable {E : Nat}

/-- Two `[E, 100]` arrays joined along the columns, read in the first hundred columns: the first array. -/
theorem concat_left {α : Type}
    (hcat : Shape.Concatenates [(⟨2, ![E, 100]⟩ : Shape), ⟨2, ![E, 100]⟩] ⟨2, ![E, 200]⟩ 1)
    (x₁ x₂ : (⟨2, ![E, 100]⟩ : Shape).Idx → α) (e : Fin E) (q : Fin 100) :
    concatenate ⟨2, ![E, 200]⟩ 1 [⟨⟨2, ![E, 100]⟩, x₁⟩, ⟨⟨2, ![E, 100]⟩, x₂⟩] hcat
      (ix2 e (Fin.castAdd 100 q : Fin 200)) = x₁ (ix2 e q) :=
  concatenate_pair_apply_left (t := ⟨2, ![E, 200]⟩) 1 x₁ x₂ hcat _ rfl (ix2 e q) (fun b => match b with
    | ⟨0, _⟩ => rfl
    | ⟨1, _⟩ => rfl)

/-- … and in the last hundred columns: the second array, the column number a hundred less. -/
theorem concat_right {α : Type}
    (hcat : Shape.Concatenates [(⟨2, ![E, 100]⟩ : Shape), ⟨2, ![E, 100]⟩] ⟨2, ![E, 200]⟩ 1)
    (x₁ x₂ : (⟨2, ![E, 100]⟩ : Shape).Idx → α) (e : Fin E) (q : Fin 100) :
    concatenate ⟨2, ![E, 200]⟩ 1 [⟨⟨2, ![E, 100]⟩, x₁⟩, ⟨⟨2, ![E, 100]⟩, x₂⟩] hcat
      (ix2 e (Fin.natAdd 100 q : Fin 200)) = x₂ (ix2 e q) :=
  concatenate_pair_apply_right (t := ⟨2, ![E, 200]⟩) 1 x₁ x₂ hcat _ rfl rfl (ix2 e q)
    (fun b => match b with
      | ⟨0, _⟩ => fun _ => rfl
      | ⟨1, _⟩ => fun hb => absurd (Fin.ext rfl) hb)
    (by show q.val + 100 = 100 + q.val; omega)

/-- The first hundred rows of the weight column. -/
theorem slice_lo_apply (gw : FVec Ideal ⟨2, ![200, 1]⟩ .f32)
    (h : (⟨2, ![200, 1]⟩ : Shape).Slices ![0, 0] ⟨2, ![100, 1]⟩) (q : Fin 100) :
    extractStridedSlice ⟨2, ![100, 1]⟩ ![0, 0] gw h (ix2 q (0 : Fin 1))
      = gw (ix2 (Fin.castAdd 100 q : Fin 200) (0 : Fin 1)) :=
  extractStridedSlice_apply ![0, 0] gw h (ix2 q (0 : Fin 1)) (ix2 (Fin.castAdd 100 q : Fin 200) (0 : Fin 1))
    (fun a => match a with
      | ⟨0, _⟩ => by show q.val = 0 + q.val; omega
      | ⟨1, _⟩ => by show (0 : Nat) = 0 + 0; rfl)

/-- The last hundred rows of the weight column. -/
theorem slice_hi_apply (gw : FVec Ideal ⟨2, ![200, 1]⟩ .f32)
    (h : (⟨2, ![200, 1]⟩ : Shape).Slices ![100, 0] ⟨2, ![100, 1]⟩) (q : Fin 100) :
    extractStridedSlice ⟨2, ![100, 1]⟩ ![100, 0] gw h (ix2 q (0 : Fin 1))
      = gw (ix2 (Fin.natAdd 100 q : Fin 200) (0 : Fin 1)) :=
  extractStridedSlice_apply ![100, 0] gw h (ix2 q (0 : Fin 1)) (ix2 (Fin.natAdd 100 q : Fin 200) (0 : Fin 1))
    (fun a => match a with
      | ⟨0, _⟩ => by show 100 + q.val = 100 + q.val; rfl
      | ⟨1, _⟩ => by show (0 : Nat) = 0 + 0; rfl)

/-- Row sums first, gather second: edge `e` reads the row sum of the row its start index addresses. -/
theorem gather_dot_apply {N : Nat} (hN : 0 < N)
    {g : GatherDims ⟨2, ![N, 1]⟩ ⟨2, ![E, 1]⟩ ⟨2, ![E, 1]⟩} (hg : RowGS.IsRowGather g)
    {d : DotDims ⟨2, ![N, 100]⟩ ⟨2, ![100, 1]⟩ ⟨2, ![N, 1]⟩} (hd : PlainDot.IsPlain d)
    (t : FVec Ideal ⟨2, ![N, 100]⟩ .f32) (v : FVec Ideal ⟨2, ![100, 1]⟩ .f32)
    (S : IVec ⟨2, ![E, 1]⟩ 32) (e : Fin E) :
    Host.gather g (Host.dotGeneral (F := Ideal) (φ₁ := .f32) (φ₂ := .f32) d none t v) S (ix2 e (0 : Fin 1))
      = ∑ q : Fin 100, t (ix2 (RowGS.srcRow hN S e) q) * v (ix2 q (0 : Fin 1)) := by
  rw [RowGS.gather_row_apply hg hN]
  exact PlainDot.dotGeneral_apply hd none t v _ _

/-- THE TWO PRE-ACTIVATIONS AGREE, for any start indices `S2`, `S3` and any bias array `b`: the two gathered row sums
    over a hundred columns each, against the one sum over the two hundred columns of the joined gathered rows. -/
theorem pre_eq_gen
    {gk1 : GatherDims ⟨2, ![50, 1]⟩ ⟨2, ![E, 1]⟩ ⟨2, ![E, 1]⟩} (hgk1 : RowGS.IsRowGather gk1)
    {gk2 : GatherDims ⟨2, ![128, 1]⟩ ⟨2, ![E, 1]⟩ ⟨2, ![E, 1]⟩} (hgk2 : RowGS.IsRowGather gk2)
    {dk1 : DotDims ⟨2, ![50, 100]⟩ ⟨2, ![100, 1]⟩ ⟨2, ![50, 1]⟩} (hdk1 : PlainDot.IsPlain dk1)
    {dk2 : DotDims ⟨2, ![128, 100]⟩ ⟨2, ![100, 1]⟩ ⟨2, ![128, 1]⟩} (hdk2 : PlainDot.IsPlain dk2)
    (hlo : (⟨2, ![200, 1]⟩ : Shape).Slices ![0, 0] ⟨2, ![100, 1]⟩)
    (hhi : (⟨2, ![200, 1]⟩ : Shape).Slices ![100, 0] ⟨2, ![100, 1]⟩)
    {gr1 : GatherDims ⟨2, ![50, 100]⟩ ⟨2, ![E, 1]⟩ ⟨2, ![E, 100]⟩} (hgr1 : RowGS.IsRowGather gr1)
    {gr2 : GatherDims ⟨2, ![128, 100]⟩ ⟨2, ![E, 1]⟩ ⟨2, ![E, 100]⟩} (hgr2 : RowGS.IsRowGather gr2)
    {dr : DotDims ⟨2, ![E, 200]⟩ ⟨2, ![200, 1]⟩ ⟨2, ![E, 1]⟩} (hdr : PlainDot.IsPlain dr)
    (hcat : Shape.Concatenates [(⟨2, ![E, 100]⟩ : Shape), ⟨2, ![E, 100]⟩] ⟨2, ![E, 200]⟩ 1)
    (S2 S3 : IVec ⟨2, ![E, 1]⟩ 32)
    (te : FVec Ideal ⟨2, ![50, 100]⟩ .f32) (de : FVec Ideal ⟨2, ![128, 100]⟩ .f32)
    (gw : FVec Ideal ⟨2, ![200, 1]⟩ .f32) (b : FVec Ideal ⟨2, ![E, 1]⟩ .f32) :
    addf (F := Ideal) (φ := .f32)
        (addf (F := Ideal) (φ := .f32)
          (Host.gather gk1 (Host.dotGeneral (F := Ideal) (φ₁ := .f32) (φ₂ := .f32) dk1 none te
            (extractStridedSlice ⟨2, ![100, 1]⟩ ![0, 0] gw hlo)) S2)
          (Host.gather gk2 (Host.dotGeneral (F := Ideal) (φ₁ := .f32) (φ₂ := .f32) dk2 none de
            (extractStridedSlice ⟨2, ![100, 1]⟩ ![100, 0] gw hhi)) S3))
        b
      = addf (F := Ideal) (φ := .f32)
        (Host.dotGeneral (F := Ideal) (φ₁ := .f32) (φ₂ := .f32) dr none
          (concatenate ⟨2, ![E, 200]⟩ 1
            [⟨⟨2, ![E, 100]⟩, Host.gather gr1 te S2⟩, ⟨⟨2, ![E, 100]⟩, Host.gather gr2 de S3⟩] hcat)
          gw)
        b := by
  funext i
  obtain ⟨e, c, rfl⟩ : ∃ (e : Fin E) (c : Fin 1), i = ix2 e c := ⟨i 0, i 1, eq_ix2 i⟩
  obtain rfl : c = 0 := Subsingleton.elim _ _
  show (Host.gather gk1 _ S2 (ix2 e (0 : Fin 1)) + Host.gather gk2 _ S3 (ix2 e (0 : Fin 1))) + b (ix2 e (0 : Fin 1))
    = Host.dotGeneral (F := Ideal) (φ₁ := .f32) (φ₂ := .f32) dr none _ gw (ix2 e (0 : Fin 1)) + b (ix2 e (0 : Fin 1))
  rw [gather_dot_apply (Nat.succ_pos 49) hgk1 hdk1, gather_dot_apply (Nat.succ_pos 127) hgk2 hdk2,
    PlainDot.dotGeneral_apply hdr, sum_two_hundred]
  congr 2
  · refine Finset.sum_congr rfl fun q _ => ?_
    rw [slice_lo_apply, concat_left, RowGS.gather_row_apply hgr1 (Nat.succ_pos 49)]
  · refine Finset.sum_congr rfl fun q _ => ?_
    rw [slice_hi_apply, concat_right, RowGS.gather_row_apply hgr2 (Nat.succ_pos 127)]

end General

/-! ## The split computation as one term, and its agreement with the joined one -/

/-- The split computation of the gate: the two hundred-term row sums taken once per table row, gathered per edge at
    the normalised indices, added, the bias added, then `z ↦ 1 / (1 + exp (−z))`. -/
def kAlpha (x2 x3 : (⟨KernelIdeal.S800000, .i32⟩ : BufTy).Contents (Elt Ideal))
    (te : (⟨KernelIdeal.S50x100, .f32⟩ : BufTy).Contents (Elt Ideal))
    (de : (⟨KernelIdeal.S128x100, .f32⟩ : BufTy).Contents (Elt Ideal))
    (gw : (⟨KernelIdeal.S200x1, .f32⟩ : BufTy).Contents (Elt Ideal))
    (gb : (⟨KernelIdeal.S1, .f32⟩ : BufTy).Contents (Elt Ideal)) :
    (⟨KernelIdeal.S800000x1, .f32⟩ : BufTy).Contents (Elt Ideal) :=
  Host.divf (F := Ideal) (φ := .f32)
    (broadcastInDim KernelIdeal.S800000x1 ![] KernelIdeal.Gen.bcast_S_S800000x1 (constant (F := Ideal) KernelIdeal.S_ .f32 0x3F800000#32))
    (addf (F := Ideal) (φ := .f32)
      (broadcastInDim KernelIdeal.S800000x1 ![] KernelIdeal.Gen.bcast_S_S800000x1 (constant (F := Ideal) KernelIdeal.S_ .f32 0x3F800000#32))
      (Host.exp (F := Ideal) (φ := .f32) (Host.negf (F := Ideal) (φ := .f32)
        (addf (F := Ideal) (φ := .f32)
          (addf (F := Ideal) (φ := .f32)
            (Host.gather KernelIdeal.gather_S50x1_S800000x1_S800000x1_1_0_n_n_0_1_11
              (Host.dotGeneral (F := Ideal) (φ₁ := .f32) (φ₂ := .f32) KernelIdeal.dot_S50x100_S100x1_S50x1_1_0_0_1_n_n none te
                (extractStridedSlice KernelIdeal.S100x1 ![0, 0] gw KernelIdeal.Gen.slices_S200x1_S100x1_0_0))
              (broadcastInDim KernelIdeal.S800000x1 ![0] KernelIdeal.Gen.bcast_S800000_S800000x1_0
                (select (cmpi .slt x2 (broadcastInDim KernelIdeal.S800000 ![] KernelIdeal.Gen.bcast_S_S800000 (constantI KernelIdeal.S_ 32 0#32)))
                  (addi x2 (broadcastInDim KernelIdeal.S800000 ![] KernelIdeal.Gen.bcast_S_S800000 (constantI KernelIdeal.S_ 32 50#32)))
                  x2)))
            (Host.gather KernelIdeal.gather_S128x1_S800000x1_S800000x1_1_0_n_n_0_1_11
              (Host.dotGeneral (F := Ideal) (φ₁ := .f32) (φ₂ := .f32) KernelIdeal.dot_S128x100_S100x1_S128x1_1_0_0_1_n_n none de
                (extractStridedSlice KernelIdeal.S100x1 ![100, 0] gw KernelIdeal.Gen.slices_S200x1_S100x1_100_0))
              (broadcastInDim KernelIdeal.S800000x1 ![0] KernelIdeal.Gen.bcast_S800000_S800000x1_0
                (select (cmpi .slt x3 (broadcastInDim KernelIdeal.S800000 ![] KernelIdeal.Gen.bcast_S_S800000 (constantI KernelIdeal.S_ 32 0#32)))
                  (addi x3 (broadcastInDim KernelIdeal.S800000 ![] KernelIdeal.Gen.bcast_S_S800000 (constantI KernelIdeal.S_ 32 128#32)))
                  x3))))
          (broadcastInDim KernelIdeal.S800000x1 ![0, 1] KernelIdeal.Gen.bcast_S1x1_S800000x1_0_1
            (broadcastInDim KernelIdeal.S1x1 ![1] KernelIdeal.Gen.bcast_S1_S1x1_1 gb))))))

/-- `z ↦ 1 / (1 + exp (−z))` at every edge. -/
def sigmoid (z : (⟨KernelIdeal.S800000x1, .f32⟩ : BufTy).Contents (Elt Ideal)) :
    (⟨KernelIdeal.S800000x1, .f32⟩ : BufTy).Contents (Elt Ideal) :=
  Host.divf (F := Ideal) (φ := .f32)
    (broadcastInDim KernelIdeal.S800000x1 ![] KernelIdeal.Gen.bcast_S_S800000x1 (constant (F := Ideal) KernelIdeal.S_ .f32 0x3F800000#32))
    (addf (F := Ideal) (φ := .f32)
      (broadcastInDim KernelIdeal.S800000x1 ![] KernelIdeal.Gen.bcast_S_S800000x1 (constant (F := Ideal) KernelIdeal.S_ .f32 0x3F800000#32))
      (Host.exp (F := Ideal) (φ := .f32) (Host.negf (F := Ideal) (φ := .f32) z)))

/-- The split pre-activation at given start indices. -/
def kPre (S2 S3 : (⟨KernelIdeal.S800000x1, .i32⟩ : BufTy).Contents (Elt Ideal))
    (te : (⟨KernelIdeal.S50x100, .f32⟩ : BufTy).Contents (Elt Ideal))
    (de : (⟨KernelIdeal.S128x100, .f32⟩ : BufTy).Contents (Elt Ideal))
    (gw : (⟨KernelIdeal.S200x1, .f32⟩ : BufTy).Contents (Elt Ideal))
    (gb : (⟨KernelIdeal.S1, .f32⟩ : BufTy).Contents (Elt Ideal)) :
    (⟨KernelIdeal.S800000x1, .f32⟩ : BufTy).Contents (Elt Ideal) :=
  (addf (F := Ideal) (φ := .f32)
          (addf (F := Ideal) (φ := .f32)
            (Host.gather KernelIdeal.gather_S50x1_S800000x1_S800000x1_1_0_n_n_0_1_11
              (Host.dotGeneral (F := Ideal) (φ₁ := .f32) (φ₂ := .f32) KernelIdeal.dot_S50x100_S100x1_S50x1_1_0_0_1_n_n none te
                (extractStridedSlice KernelIdeal.S100x1 ![0, 0] gw KernelIdeal.Gen.slices_S200x1_S100x1_0_0))
              S2)
            (Host.gather KernelIdeal.gather_S128x1_S800000x1_S800000x1_1_0_n_n_0_1_11
              (Host.dotGeneral (F := Ideal) (φ₁ := .f32) (φ₂ := .f32) KernelIdeal.dot_S128x100_S100x1_S128x1_1_0_0_1_n_n none de
                (extractStridedSlice KernelIdeal.S100x1 ![100, 0] gw KernelIdeal.Gen.slices_S200x1_S100x1_100_0))
              S3))
          (broadcastInDim KernelIdeal.S800000x1 ![0, 1] KernelIdeal.Gen.bcast_S1x1_S800000x1_0_1
            (broadcastInDim KernelIdeal.S1x1 ![1] KernelIdeal.Gen.bcast_S1_S1x1_1 gb)))

/-- The joined pre-activation at given start indices. -/
def rPre (S2 S3 : (⟨ReferenceIdeal.S800000x1, .i32⟩ : BufTy).Contents (Elt Ideal))
    (te : (⟨ReferenceIdeal.S50x100, .f32⟩ : BufTy).Contents (Elt Ideal))
    (de : (⟨ReferenceIdeal.S128x100, .f32⟩ : BufTy).Contents (Elt Ideal))
    (gw : (⟨ReferenceIdeal.S200x1, .f32⟩ : BufTy).Contents (Elt Ideal))
    (gb : (⟨ReferenceIdeal.S1, .f32⟩ : BufTy).Contents (Elt Ideal)) :
    (⟨ReferenceIdeal.S800000x1, .f32⟩ : BufTy).Contents (Elt Ideal) :=
  addf (F := Ideal) (φ := .f32)
    (Host.dotGeneral (F := Ideal) (φ₁ := .f32) (φ₂ := .f32) ReferenceIdeal.dot_S800000x200_S200x1_S800000x1_1_0_0_1_n_n none
      (concatenate ReferenceIdeal.S800000x200 1
        [⟨ReferenceIdeal.S800000x100, Host.gather ReferenceIdeal.gather_S50x100_S800000x1_S800000x100_1_0_n_n_0_1_1100 te S2⟩,
         ⟨ReferenceIdeal.S800000x100, Host.gather ReferenceIdeal.gather_S128x100_S800000x1_S800000x100_1_0_n_n_0_1_1100 de S3⟩]
        ReferenceIdeal.Gen.concatenates_S800000x100_S800000x100_S800000x200_d1)
      gw)
    (broadcastInDim ReferenceIdeal.S800000x1 ![0, 1] ReferenceIdeal.Gen.bcast_S1x1_S800000x1_0_1
            (broadcastInDim ReferenceIdeal.S1x1 ![1] ReferenceIdeal.Gen.bcast_S1_S1x1_1 gb))

/-- The split and the joined pre-activations agree at any start indices. -/
theorem kPre_eq_rPre (S2 S3 : (⟨KernelIdeal.S800000x1, .i32⟩ : BufTy).Contents (Elt Ideal))
    (te : (⟨KernelIdeal.S50x100, .f32⟩ : BufTy).Contents (Elt Ideal))
    (de : (⟨KernelIdeal.S128x100, .f32⟩ : BufTy).Contents (Elt Ideal))
    (gw : (⟨KernelIdeal.S200x1, .f32⟩ : BufTy).Contents (Elt Ideal))
    (gb : (⟨KernelIdeal.S1, .f32⟩ : BufTy).Contents (Elt Ideal)) :
    kPre S2 S3 te de gw gb = rPre S2 S3 te de gw gb :=
  pre_eq_gen (E := 800000) ⟨rfl, rfl, rfl, rfl, rfl, rfl, rfl⟩ ⟨rfl, rfl, rfl, rfl, rfl, rfl, rfl⟩
    ⟨rfl, rfl, rfl, rfl, rfl, rfl⟩ ⟨rfl, rfl, rfl, rfl, rfl, rfl⟩ _ _
    ⟨rfl, rfl, rfl, rfl, rfl, rfl, rfl⟩ ⟨rfl, rfl, rfl, rfl, rfl, rfl, rfl⟩ ⟨rfl, rfl, rfl, rfl, rfl, rfl⟩ _
    S2 S3 te de gw _

/-- The split computation is the sigmoid of the split pre-activation at the normalised indices. -/
theorem kAlpha_eq_sigmoid (x2 x3 : (⟨KernelIdeal.S800000, .i32⟩ : BufTy).Contents (Elt Ideal))
    (te : (⟨KernelIdeal.S50x100, .f32⟩ : BufTy).Contents (Elt Ideal))
    (de : (⟨KernelIdeal.S128x100, .f32⟩ : BufTy).Contents (Elt Ideal))
    (gw : (⟨KernelIdeal.S200x1, .f32⟩ : BufTy).Contents (Elt Ideal))
    (gb : (⟨KernelIdeal.S1, .f32⟩ : BufTy).Contents (Elt Ideal)) :
    kAlpha x2 x3 te de gw gb
      = sigmoid (kPre (broadcastInDim KernelIdeal.S800000x1 ![0] KernelIdeal.Gen.bcast_S800000_S800000x1_0
                (select (cmpi .slt x2 (broadcastInDim KernelIdeal.S800000 ![] KernelIdeal.Gen.bcast_S_S800000 (constantI KernelIdeal.S_ 32 0#32)))
                  (addi x2 (broadcastInDim KernelIdeal.S800000 ![] KernelIdeal.Gen.bcast_S_S800000 (constantI KernelIdeal.S_ 32 50#32)))
                  x2))
          (broadcastInDim KernelIdeal.S800000x1 ![0] KernelIdeal.Gen.bcast_S800000_S800000x1_0
                (select (cmpi .slt x3 (broadcastInDim KernelIdeal.S800000 ![] KernelIdeal.Gen.bcast_S_S800000 (constantI KernelIdeal.S_ 32 0#32)))
                  (addi x3 (broadcastInDim KernelIdeal.S800000 ![] KernelIdeal.Gen.bcast_S_S800000 (constantI KernelIdeal.S_ 32 128#32)))
                  x3)) te de gw gb) := rfl

/-- LAYER 1: the split computation of the gate is the joined one. -/
theorem kAlpha_eq_v38 (x2 x3 : (⟨KernelIdeal.S800000, .i32⟩ : BufTy).Contents (Elt Ideal))
    (x9 : (⟨KernelIdeal.S50x100, .f32⟩ : BufTy).Contents (Elt Ideal))
    (x10 : (⟨KernelIdeal.S128x100, .f32⟩ : BufTy).Contents (Elt Ideal))
    (x11 : (⟨KernelIdeal.S200x1, .f32⟩ : BufTy).Contents (Elt Ideal))
    (x12 : (⟨KernelIdeal.S1, .f32⟩ : BufTy).Contents (Elt Ideal)) :
    kAlpha x2 x3 x9 x10 x11 x12 = ReferenceIdeal.Read.val_main_v38 (F := Ideal) x2 x3 x9 x10 x11 x12 :=
  congrArg sigmoid (kPre_eq_rPre (ReferenceIdeal.Read.val_main_v19 (F := Ideal) x2) (ReferenceIdeal.Read.val_main_v26 (F := Ideal) x3)
    x9 x10 x11 x12)

/-- LAYER 2: the same, over the second layer's tables, weight column and bias. -/
theorem kAlpha_eq_v83 (x2 x3 : (⟨KernelIdeal.S800000, .i32⟩ : BufTy).Contents (Elt Ideal))
    (x16 : (⟨KernelIdeal.S50x100, .f32⟩ : BufTy).Contents (Elt Ideal))
    (x17 : (⟨KernelIdeal.S128x100, .f32⟩ : BufTy).Contents (Elt Ideal))
    (x18 : (⟨KernelIdeal.S200x1, .f32⟩ : BufTy).Contents (Elt Ideal))
    (x19 : (⟨KernelIdeal.S1, .f32⟩ : BufTy).Contents (Elt Ideal)) :
    kAlpha x2 x3 x16 x17 x18 x19 = ReferenceIdeal.Read.val_main_v83 (F := Ideal) x2 x3 x16 x17 x18 x19 :=
  congrArg sigmoid (kPre_eq_rPre (ReferenceIdeal.Read.val_main_v64 (F := Ideal) x2) (ReferenceIdeal.Read.val_main_v71 (F := Ideal) x3)
    x16 x17 x18 x19)

end Cert.Gate

end
-- ==== Proof.Boundary.lean ====
/-
  The buffer contents at the boundaries between the program's stretches of host operations and its three regions,
  followed back to the launch memory. A stretch leaves every buffer none of its operations writes as it found it, a
  region every buffer that is none of its arrays. The edge source and destination vectors are the two rows of the edge
  index array; each layer's aggregate is one scatter-add, at the destinations, of the gated rows gathered at the
  sources from that layer's product array; each bias row is the bias vector reshaped.
-/
import proofs.«144004_j57767310131498_2_alg».proof.Proof.Gen.KernelIdeal.Frame
import proofs.«144004_j57767310131498_2_alg».proof.Proof.GateLaw
import Idealize.ShloMosaic.Lib.StableHlo.Run
import Idealize.ShloMosaic.Lib.Pipeline.Value
import Idealize.ShloMosaic.Lib.ValueIdx
set_option maxRecDepth 16384

noncomputable section

open scoped BigOperators

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- One layer's aggregate from the layer's product array `XT` (C columns), the edge sources and destinations and the
    per-edge gate: rows of `XT` gathered at the normalised sources, scaled by the gate, scatter-added at the destinations
    into zeros. -/
def agg256 (XT : (⟨S50000x256, .bf16⟩ : BufTy).Contents (Elt Ideal)) (src dst : (⟨S800000, .i32⟩ : BufTy).Contents (Elt Ideal))
    (alpha : (⟨S800000x1, .f32⟩ : BufTy).Contents (Elt Ideal)) : (⟨S50000x256, .f32⟩ : BufTy).Contents (Elt Ideal) :=
  Host.scatterAdd (F := Ideal) (φ := .f32) scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (mulf (F := Ideal) (φ := .f32) (broadcastInDim S800000x256 ![0, 1] bcast_S800000x1_S800000x256_0_1 alpha)
      (extf (F := Ideal) (φ := .bf16) .f32
        (Host.gather gather_S50000x256_S800000x1_S800000x256_1_0_n_n_0_1_1256 XT
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32))) src)))
        bitsLt_bf16_f32))

def agg9 (XT : (⟨S50000x9, .bf16⟩ : BufTy).Contents (Elt Ideal)) (src dst : (⟨S800000, .i32⟩ : BufTy).Contents (Elt Ideal))
    (alpha : (⟨S800000x1, .f32⟩ : BufTy).Contents (Elt Ideal)) : (⟨S50000x9, .f32⟩ : BufTy).Contents (Elt Ideal) :=
  Host.scatterAdd (F := Ideal) (φ := .f32) scatter_S50000x9_S800000x1_S800000x9_1_0_0_1
    (broadcastInDim S50000x9 ![] bcast_S_S50000x9 (constant (F := Ideal) S_ .f32 0x00000000#32))
    (broadcastInDim S800000x1 ![0] bcast_S800000_S800000x1_0 dst)
    (mulf (F := Ideal) (φ := .f32) (broadcastInDim S800000x9 ![0, 1] bcast_S800000x1_S800000x9_0_1 alpha)
      (extf (F := Ideal) (φ := .bf16) .f32
        (Host.gather gather_S50000x9_S800000x1_S800000x9_1_0_n_n_0_1_19 XT
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32))) src)))
        bitsLt_bf16_f32))

/-! ## What each stretch computes -/

theorem W1_v1 (c : Dev nD) : W1 m ρ c (Proc.devRef .tc main_v1)
    = shapeCast S800000 (extractStridedSlice S1x800000 ![0, 0] (m ((c : Thread nD τ).loc main_arg1)) slices_S2x800000_S1x800000_0_0) shapeCasts_S1x800000_S800000 := by
  show StableHlo.after hostOps0 (W0 m ρ c) (Proc.devRef .tc main_v1) = _
  after_results_simp
  rfl

theorem W1_v3 (c : Dev nD) : W1 m ρ c (Proc.devRef .tc main_v3)
    = shapeCast S800000 (extractStridedSlice S1x800000 ![1, 0] (m ((c : Thread nD τ).loc main_arg1)) slices_S2x800000_S1x800000_1_0) shapeCasts_S1x800000_S800000 := by
  show StableHlo.after hostOps0 (W0 m ρ c) (Proc.devRef .tc main_v3) = _
  after_results_simp
  rfl

theorem W3_v45 (c : Dev nD) : W3 m ρ c (Proc.devRef .tc main_v45)
    = agg256 (W2 m ρ c (Proc.devRef .tc main_v4_0)) (W2 m ρ c (Proc.devRef .tc main_v1)) (W2 m ρ c (Proc.devRef .tc main_v3))
        (Cert.Gate.kAlpha (W2 m ρ c (Proc.devRef .tc main_arg2)) (W2 m ρ c (Proc.devRef .tc main_arg3)) (W2 m ρ c (Proc.devRef .tc main_arg9))
          (W2 m ρ c (Proc.devRef .tc main_arg10)) (W2 m ρ c (Proc.devRef .tc main_arg11)) (W2 m ρ c (Proc.devRef .tc main_arg12))) := by
  show StableHlo.after hostOps1 (W2 m ρ c) (Proc.devRef .tc main_v45) = _
  after_results_simp
  rfl

theorem W3_v46 (c : Dev nD) : W3 m ρ c (Proc.devRef .tc main_v46)
    = shapeCast S1x256 (W2 m ρ c (Proc.devRef .tc main_arg8)) shapeCasts_S256_S1x256 := by
  show StableHlo.after hostOps1 (W2 m ρ c) (Proc.devRef .tc main_v46) = _
  after_results_simp
  rfl

theorem W5_v88 (c : Dev nD) : W5 m ρ c (Proc.devRef .tc main_v88)
    = agg9 (W4 m ρ c (Proc.devRef .tc main_v47_0)) (W4 m ρ c (Proc.devRef .tc main_v1)) (W4 m ρ c (Proc.devRef .tc main_v3))
        (Cert.Gate.kAlpha (W4 m ρ c (Proc.devRef .tc main_arg2)) (W4 m ρ c (Proc.devRef .tc main_arg3)) (W4 m ρ c (Proc.devRef .tc main_arg16))
          (W4 m ρ c (Proc.devRef .tc main_arg17)) (W4 m ρ c (Proc.devRef .tc main_arg18)) (W4 m ρ c (Proc.devRef .tc main_arg19))) := by
  show StableHlo.after hostOps2 (W4 m ρ c) (Proc.devRef .tc main_v88) = _
  after_results_simp
  rfl

theorem W5_v89 (c : Dev nD) : W5 m ρ c (Proc.devRef .tc main_v89)
    = shapeCast S1x9 (W4 m ρ c (Proc.devRef .tc main_arg15)) shapeCasts_S9_S1x9 := by
  show StableHlo.after hostOps2 (W4 m ρ c) (Proc.devRef .tc main_v89) = _
  after_results_simp
  rfl

/-! ## What each stretch and each region leaves alone -/

theorem W1_keep_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg6 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg7 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg3 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg4 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg5 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg8 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg9 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg10 (c : Dev nD) : W1 m ρ c (Proc.devRef .tc main_arg10) = W0 m ρ c (Proc.devRef .tc main_arg10) :=
  StableHlo.after_of_forall_not_mem (b := Proc.devRef .tc main_arg10) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg11 (c : Dev nD) : W1 m ρ c (Proc.devRef .tc main_arg11) = W0 m ρ c (Proc.devRef .tc main_arg11) :=
  StableHlo.after_of_forall_not_mem (b := Proc.devRef .tc main_arg11) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg12 (c : Dev nD) : W1 m ρ c (Proc.devRef .tc main_arg12) = W0 m ρ c (Proc.devRef .tc main_arg12) :=
  StableHlo.after_of_forall_not_mem (b := Proc.devRef .tc main_arg12) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg13 (c : Dev nD) : W1 m ρ c (Proc.devRef .tc main_arg13) = W0 m ρ c (Proc.devRef .tc main_arg13) :=
  StableHlo.after_of_forall_not_mem (b := Proc.devRef .tc main_arg13) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg14 (c : Dev nD) : W1 m ρ c (Proc.devRef .tc main_arg14) = W0 m ρ c (Proc.devRef .tc main_arg14) :=
  StableHlo.after_of_forall_not_mem (b := Proc.devRef .tc main_arg14) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg15 (c : Dev nD) : W1 m ρ c (Proc.devRef .tc main_arg15) = W0 m ρ c (Proc.devRef .tc main_arg15) :=
  StableHlo.after_of_forall_not_mem (b := Proc.devRef .tc main_arg15) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg16 (c : Dev nD) : W1 m ρ c (Proc.devRef .tc main_arg16) = W0 m ρ c (Proc.devRef .tc main_arg16) :=
  StableHlo.after_of_forall_not_mem (b := Proc.devRef .tc main_arg16) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg17 (c : Dev nD) : W1 m ρ c (Proc.devRef .tc main_arg17) = W0 m ρ c (Proc.devRef .tc main_arg17) :=
  StableHlo.after_of_forall_not_mem (b := Proc.devRef .tc main_arg17) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg18 (c : Dev nD) : W1 m ρ c (Proc.devRef .tc main_arg18) = W0 m ρ c (Proc.devRef .tc main_arg18) :=
  StableHlo.after_of_forall_not_mem (b := Proc.devRef .tc main_arg18) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_keep_arg19 (c : Dev nD) : W1 m ρ c (Proc.devRef .tc main_arg19) = W0 m ρ c (Proc.devRef .tc main_arg19) :=
  StableHlo.after_of_forall_not_mem (b := Proc.devRef .tc main_arg19) _ _ (List.forall_iff_forall_mem.mp (by
    simp only [hostOps0, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W2_keep_arg2 (c : Dev nD) : W2 m ρ c (Proc.devRef .tc main_arg2) = W1 m ρ c (Proc.devRef .tc main_arg2) :=
  W2_of_ne m ρ c main_arg2 (by decide)
theorem W2_keep_arg3 (c : Dev nD) : W2 m ρ c (Proc.devRef .tc main_arg3) = W1 m ρ c (Proc.devRef .tc main_arg3) :=
  W2_of_ne m ρ c main_arg3 (by decide)
theorem W2_keep_arg4 (c : Dev nD) : W2 m ρ c (Proc.devRef .tc main_arg4) = W1 m ρ c (Proc.devRef .tc main_arg4) :=
  W2_of_ne m ρ c main_arg4 (by decide)
theorem W2_keep_arg5 (c : Dev nD) : W2 m ρ c (Proc.devRef .tc main_arg5) = W1 m ρ c (Proc.devRef .tc main_arg5) :=
  W2_of_ne m ρ c main_arg5 (by decide)
theorem W2_keep_arg8 (c : Dev nD) : W2 m ρ c (Proc.devRef .tc main_arg8) = W1 m ρ c (Proc.devRef .tc main_arg8) :=
  W2_of_ne m ρ c main_arg8 (by decide)
theorem W2_keep_arg9 (c : Dev nD) : W2 m ρ c (Proc.devRef .tc main_arg9) = W1 m ρ c (Proc.devRef .tc main_arg9) :=
  W2_of_ne m ρ c main_arg9 (by decide)
theorem W2_keep_arg10 (c : Dev nD) : W2 m ρ c (Proc.devRef .tc main_arg10) = W1 m ρ c (Proc.devRef .tc main_arg10) :=
  W2_of_ne m ρ c main_arg10 (by decide)
theorem W2_keep_arg11 (c : Dev nD) : W2 m ρ c (Proc.devRef .tc main_arg11) = W1 m ρ c (Proc.devRef .tc main_arg11) :=
  W2_of_ne m ρ c main_arg11 (by decide)
theorem W2_keep_arg12 (c : Dev nD) : W2 m ρ c (Proc.devRef .tc main_arg12) = W1 m ρ c (Proc.devRef .tc main_arg12) :=
  W2_of_ne m ρ c main_arg12 (by decide)
theorem W2_keep_arg13 (c : Dev nD) : W2 m ρ c (Proc.devRef .tc main_arg13) = W1 m ρ c (Proc.devRef .tc main_arg13) :=
  W2_of_ne m ρ c main_arg13 (by decide)
theorem W2_keep_arg14 (c : Dev nD) : W2 m ρ c (Proc.devRef .tc main_arg14) = W1 m ρ c (Proc.devRef .tc main_arg14) :=
  W2_of_ne m ρ c main_arg14 (by decide)
theorem W2_keep_arg15 (c : Dev nD) : W2 m ρ c (Proc.devRef .tc main_arg15) = W1 m ρ c (Proc.devRef .tc main_arg15) :=
  W2_of_ne m ρ c main_arg15 (by decide)
theorem W2_keep_arg16 (c : Dev nD) : W2 m ρ c (Proc.devRef .tc main_arg16) = W1 m ρ c (Proc.devRef .tc main_arg16) :=
  W2_of_ne m ρ c main_arg16 (by decide)
theorem W2_keep_arg17 (c : Dev nD) : W2 m ρ c (Proc.devRef .tc main_arg17) = W1 m ρ c (Proc.devRef .tc main_arg17) :=
  W2_of_ne m ρ c main_arg17 (by decide)
theorem W2_keep_arg18 (c : Dev nD) : W2 m ρ c (Proc.devRef .tc main_arg18) = W1 m ρ c (Proc.devRef .tc main_arg18) :=
  W2_of_ne m ρ c main_arg18 (by decide)
theorem W2_keep_arg19 (c : Dev nD) : W2 m ρ c (Proc.devRef .tc main_arg19) = W1 m ρ c (Proc.devRef .tc main_arg19) :=
  W2_of_ne m ρ c main_arg19 (by decide)
theorem W2_keep_v1 (c : Dev nD) : W2 m ρ c (Proc.devRef .tc main_v1) = W1 m ρ c (Proc.devRef .tc main_v1) :=
  W2_of_ne m ρ c main_v1 (by decide)
theorem W2_keep_v3 (c : Dev nD) : W2 m ρ c (Proc.devRef .tc main_v3) = W1 m ρ c (Proc.devRef .tc main_v3) :=
  W2_of_ne m ρ c main_v3 (by decide)
theorem W3_keep_v4_1 (c : Dev nD) : W3 m ρ c (Proc.devRef .tc main_v4_1) = W2 m ρ c (Proc.devRef .tc main_v4_1) :=
  StableHlo.after_of_forall_not_mem (b := Proc.devRef .tc main_v4_1) _ _ (List.forall_iff_forall_mem.mp (by
    simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_keep_arg4 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by
    simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_keep_arg13 (c : Dev nD) : W3 m ρ c (Proc.devRef .tc main_arg13) = W2 m ρ c (Proc.devRef .tc main_arg13) :=
  StableHlo.after_of_forall_not_mem (b := Proc.devRef .tc main_arg13) _ _ (List.forall_iff_forall_mem.mp (by
    simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_keep_arg14 (c : Dev nD) : W3 m ρ c (Proc.devRef .tc main_arg14) = W2 m ρ c (Proc.devRef .tc main_arg14) :=
  StableHlo.after_of_forall_not_mem (b := Proc.devRef .tc main_arg14) _ _ (List.forall_iff_forall_mem.mp (by
    simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_keep_arg2 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by
    simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_keep_arg3 (c : Dev nD) : W3 m ρ c (Proc.devRef .tc main_arg3) = W2 m ρ c (Proc.devRef .tc main_arg3) :=
  StableHlo.after_of_forall_not_mem (b := Proc.devRef .tc main_arg3) _ _ (List.forall_iff_forall_mem.mp (by
    simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_keep_arg5 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_keep_arg15 (c : Dev nD) : W3 m ρ c (Proc.devRef .tc main_arg15) = W2 m ρ c (Proc.devRef .tc main_arg15) :=
  StableHlo.after_of_forall_not_mem (b := Proc.devRef .tc main_arg15) _ _ (List.forall_iff_forall_mem.mp (by
    simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_keep_arg16 (c : Dev nD) : W3 m ρ c (Proc.devRef .tc main_arg16) = W2 m ρ c (Proc.devRef .tc main_arg16) :=
  StableHlo.after_of_forall_not_mem (b := Proc.devRef .tc main_arg16) _ _ (List.forall_iff_forall_mem.mp (by
    simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_keep_arg17 (c : Dev nD) : W3 m ρ c (Proc.devRef .tc main_arg17) = W2 m ρ c (Proc.devRef .tc main_arg17) :=
  StableHlo.after_of_forall_not_mem (b := Proc.devRef .tc main_arg17) _ _ (List.forall_iff_forall_mem.mp (by
    simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_keep_arg18 (c : Dev nD) : W3 m ρ c (Proc.devRef .tc main_arg18) = W2 m ρ c (Proc.devRef .tc main_arg18) :=
  StableHlo.after_of_forall_not_mem (b := Proc.devRef .tc main_arg18) _ _ (List.forall_iff_forall_mem.mp (by
    simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_keep_arg19 (c : Dev nD) : W3 m ρ c (Proc.devRef .tc main_arg19) = W2 m ρ c (Proc.devRef .tc main_arg19) :=
  StableHlo.after_of_forall_not_mem (b := Proc.devRef .tc main_arg19) _ _ (List.forall_iff_forall_mem.mp (by
    simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_keep_v1 (c : Dev nD) : W3 m ρ c (Proc.devRef .tc main_v1) = W2 m ρ c (Proc.devRef .tc main_v1) :=
  StableHlo.after_of_forall_not_mem (b := Proc.devRef .tc main_v1) _ _ (List.forall_iff_forall_mem.mp (by
    simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_keep_v3 (c : Dev nD) : W3 m ρ c (Proc.devRef .tc main_v3) = W2 m ρ c (Proc.devRef .tc main_v3) :=
  StableHlo.after_of_forall_not_mem (b := Proc.devRef .tc main_v3) _ _ (List.forall_iff_forall_mem.mp (by
    simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W4_keep_arg2 (c : Dev nD) : W4 m ρ c (Proc.devRef .tc main_arg2) = W3 m ρ c (Proc.devRef .tc main_arg2) :=
  W4_of_ne m ρ c main_arg2 (by decide)
theorem W4_keep_arg3 (c : Dev nD) : W4 m ρ c (Proc.devRef .tc main_arg3) = W3 m ρ c (Proc.devRef .tc main_arg3) :=
  W4_of_ne m ρ c main_arg3 (by decide)
theorem W4_keep_arg5 (c : Dev nD) : W4 m ρ c (Proc.devRef .tc main_arg5) = W3 m ρ c (Proc.devRef .tc main_arg5) :=
  W4_of_ne m ρ c main_arg5 (by decide)
theorem W4_keep_arg15 (c : Dev nD) : W4 m ρ c (Proc.devRef .tc main_arg15) = W3 m ρ c (Proc.devRef .tc main_arg15) :=
  W4_of_ne m ρ c main_arg15 (by decide)
theorem W4_keep_arg16 (c : Dev nD) : W4 m ρ c (Proc.devRef .tc main_arg16) = W3 m ρ c (Proc.devRef .tc main_arg16) :=
  W4_of_ne m ρ c main_arg16 (by decide)
theorem W4_keep_arg17 (c : Dev nD) : W4 m ρ c (Proc.devRef .tc main_arg17) = W3 m ρ c (Proc.devRef .tc main_arg17) :=
  W4_of_ne m ρ c main_arg17 (by decide)
theorem W4_keep_arg18 (c : Dev nD) : W4 m ρ c (Proc.devRef .tc main_arg18) = W3 m ρ c (Proc.devRef .tc main_arg18) :=
  W4_of_ne m ρ c main_arg18 (by decide)
theorem W4_keep_arg19 (c : Dev nD) : W4 m ρ c (Proc.devRef .tc main_arg19) = W3 m ρ c (Proc.devRef .tc main_arg19) :=
  W4_of_ne m ρ c main_arg19 (by decide)
theorem W4_keep_v1 (c : Dev nD) : W4 m ρ c (Proc.devRef .tc main_v1) = W3 m ρ c (Proc.devRef .tc main_v1) :=
  W4_of_ne m ρ c main_v1 (by decide)
theorem W4_keep_v3 (c : Dev nD) : W4 m ρ c (Proc.devRef .tc main_v3) = W3 m ρ c (Proc.devRef .tc main_v3) :=
  W4_of_ne m ρ c main_v3 (by decide)
theorem W5_keep_v47_1 (c : Dev nD) : W5 m ρ c (Proc.devRef .tc main_v47_1) = W4 m ρ c (Proc.devRef .tc main_v47_1) :=
  StableHlo.after_of_forall_not_mem (b := Proc.devRef .tc main_v47_1) _ _ (List.forall_iff_forall_mem.mp (by
    simp only [hostOps2, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W5_keep_arg5 (c : Dev nD) : W5 m ρ c (Proc.devRef .tc main_arg5) = W4 m ρ c (Proc.devRef .tc main_arg5) :=
  StableHlo.after_of_forall_not_mem (b := Proc.devRef .tc main_arg5) _ _ (List.forall_iff_forall_mem.mp (by
    simp only [hostOps2, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Whole

end
-- ==== Proof.Spec.lean ====
/-
  The two whole-array functions both programs are built from, on the extended reals, index by index.

  `prod A B` is the plain product of an M×K by a K×N array: entry (p, c) is Σ_{q<K} A[p,q]·B[q,c].
  `epi agg root b drop` is one layer's epilogue: entry (n, k) is max((agg[n,k] + root[n,k] + b[k]) · keep(drop[n,k]), 0),
  where `keep d` is the inverted-dropout factor of one uniform sample d: the truth value of d ≥ 0.4 (the binary32
  word of 0.4) read as 0 or 1, times the binary32 word of 5/3. The same two words stand in both programs, so neither
  is ever evaluated.
-/
import Idealize.ShloMosaic.PureOps.Ideal
import Idealize.ShloMosaic.Lib.ValueIdx
set_option maxRecDepth 16384

noncomputable section

open scoped BigOperators

namespace Cert.Spec

open Idealize.ShloMosaic Idealize.ShloMosaic.ValueIdx

/-- The plain product of an `M×K` by a `K×N` array at entry `(p, c)`: the sum over the shared coordinate. -/
def prod {M K N : Nat} (A : (⟨2, ![M, K]⟩ : Shape).Idx → EReal) (B : (⟨2, ![K, N]⟩ : Shape).Idx → EReal) :
    (⟨2, ![M, N]⟩ : Shape).Idx → EReal :=
  fun i => ∑ q : Fin K, A (ix2 (i 0) q) * B (ix2 q (i 1))

theorem prod_apply {M K N : Nat} (A : (⟨2, ![M, K]⟩ : Shape).Idx → EReal) (B : (⟨2, ![K, N]⟩ : Shape).Idx → EReal)
    (p : Fin M) (c : Fin N) : prod A B (ix2 p c) = ∑ q : Fin K, A (ix2 p q) * B (ix2 q c) := rfl

/-- The inverted-dropout factor of one uniform sample: (sample ≥ 0.4) as 0 or 1, times 5/3, both constants as
    their binary32 words. -/
def keep (d : EReal) : EReal :=
  FloatOps.mulf (F := Ideal) (φ := .f32)
    (FloatOps.uitofp (F := Ideal) .f32 (FloatOps.cmpf (F := Ideal) (φ := .f32) .oge d (FloatOps.ofBits (F := Ideal) .f32 0x3ECCCCCD#32)))
    (FloatOps.ofBits (F := Ideal) .f32 0x3FD55555#32)

/-- One layer's epilogue at entry `(n, k)`: aggregate plus root term plus bias, times the dropout factor, clamped
    below at zero. -/
def epi {N C : Nat} (agg root : (⟨2, ![N, C]⟩ : Shape).Idx → EReal) (b : (⟨1, ![C]⟩ : Shape).Idx → EReal)
    (drop : (⟨2, ![N, C]⟩ : Shape).Idx → EReal) : (⟨2, ![N, C]⟩ : Shape).Idx → EReal :=
  fun i => FloatOps.maximumf (F := Ideal) (φ := .f32)
    (FloatOps.mulf (F := Ideal) (φ := .f32)
      (FloatOps.addf (F := Ideal) (φ := .f32) (FloatOps.addf (F := Ideal) (φ := .f32) (agg i) (root i)) (b (ix1 (i 1))))
      (keep (drop i)))
    (FloatOps.ofBits (F := Ideal) .f32 0x00000000#32)

/-- A one-bit word widened without sign and read as a signed integer is the bit read as a natural number. -/
theorem bit_widen (b : BitVec 1) : ((b.setWidth 32).toInt : ℝ) = (b.toNat : ℝ) := by
  have h : b = 0#1 ∨ b = 1#1 := by
    have := b.isLt
    rcases Nat.lt_or_ge b.toNat 1 with h0 | h1
    · left; apply BitVec.eq_of_toNat_eq; simp; omega
    · right; apply BitVec.eq_of_toNat_eq; simp; omega
  rcases h with rfl | rfl <;> norm_num

end Cert.Spec

end
-- ==== Proof.Region0.lean ====
/-
  The first region: each of its 25 grid points takes 2000 rows of the node features and both whole weight matrices and
  writes back 2000 rows of the two products. Point t's blocks are rows [2000·t, 2000·t + 2000) of the feature array and of
  both results; the 25 row blocks tile the 50000 rows, so after the region each result array is the plain product of the
  whole feature array with its weight matrix (a product's row depends on the same row of the left factor only).
-/
import proofs.«144004_j57767310131498_2_alg».proof.Proof.Gen.KernelIdeal.Frame
import proofs.«144004_j57767310131498_2_alg».proof.Proof.LibPlainDot
import proofs.«144004_j57767310131498_2_alg».proof.Proof.Spec
import Idealize.ShloMosaic.Lib.Pipeline.Value
import Idealize.ShloMosaic.Lib.ValueIdx
import Idealize.ShloMosaic.PureOps.Ideal.Laws
set_option maxRecDepth 16384

noncomputable section

open scoped BigOperators

namespace Cert.KernelIdeal.Whole

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-- A plain product read at an entry, for the two products of the first body: the changes of float format are the
    identity on the extended reals. -/
theorem pay0_xt (x : Vec Ideal S2000x768 .f32) (w : Vec Ideal S768x256 .f32) (p : Fin 2000) (j : Fin 256) :
    k0_pay2 (F := Ideal) x w (ix2 p j) = ∑ q : Fin 768, x (ix2 p q) * w (ix2 q j) :=
  Cert.PlainDot.matmul_zero_apply (φ₁ := .bf16) (φ₂ := .bf16) (d := dot_S2000x768_S768x256_S2000x256_1_0_0_1_n_n) ⟨rfl, rfl, rfl, rfl, rfl, rfl⟩ none x w p j

theorem pay0_root (x : Vec Ideal S2000x768 .f32) (w : Vec Ideal S768x256 .f32) (p : Fin 2000) (j : Fin 256) :
    k0_pay3 (F := Ideal) x w (ix2 p j) = ∑ q : Fin 768, x (ix2 p q) * w (ix2 q j) :=
  Cert.PlainDot.matmul_zero_apply (φ₁ := .bf16) (φ₂ := .bf16) (d := dot_S2000x768_S768x256_S2000x256_1_0_0_1_n_n) ⟨rfl, rfl, rfl, rfl, rfl, rfl⟩ none x w p j

/-- The printed index maps over the grid: the row-blocked windows sit at block row t, the weight windows at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 ∧ t.val < 25 :=
  (by decide +kernel : ∀ t : Fin grid0.N, _)

/-- A block of a product from blocks of its factors: entry (p, j) of the body's product of a row block with a whole
    weight matrix is entry i of the whole product, when the row block's row p is the array's row i₀ and j is i₁. -/
theorem blockprod_xt (X : S50000x768.Idx → EReal) (Wm : S768x256.Idx → EReal) (xb : Vec Ideal S2000x768 .f32)
    (wb : Vec Ideal S768x256 .f32) (y : S2000x256.Idx) (i : S50000x256.Idx)
    (hx : ∀ q : Fin 768, xb (ix2 (y 0) q) = X (ix2 (i 0) q)) (hw : ∀ q : Fin 768, wb (ix2 q (y 1)) = Wm (ix2 q (i 1))) :
    k0_pay2 (F := Ideal) xb wb y = prod X Wm i := by
  obtain ⟨p, j, rfl⟩ : ∃ (p : Fin 2000) (j : Fin 256), y = ix2 p j := ⟨y 0, y 1, eq_ix2 y⟩
  rw [pay0_xt]
  exact Finset.sum_congr rfl fun q _ => by rw [← hx q, ← hw q]

theorem blockprod_root (X : S50000x768.Idx → EReal) (Wm : S768x256.Idx → EReal) (xb : Vec Ideal S2000x768 .f32)
    (wb : Vec Ideal S768x256 .f32) (y : S2000x256.Idx) (i : S50000x256.Idx)
    (hx : ∀ q : Fin 768, xb (ix2 (y 0) q) = X (ix2 (i 0) q)) (hw : ∀ q : Fin 768, wb (ix2 q (y 1)) = Wm (ix2 q (i 1))) :
    k0_pay3 (F := Ideal) xb wb y = prod X Wm i := by
  obtain ⟨p, j, rfl⟩ : ∃ (p : Fin 2000) (j : Fin 256), y = ix2 p j := ⟨y 0, y 1, eq_ix2 y⟩
  rw [pay0_root]
  exact Finset.sum_congr rfl fun q _ => by rw [← hx q, ← hw q]

variable (V : (c : Dev nD) → (b : Ref sig .tc) → Buf (Elt Ideal) ((c : Thread nD τ).loc b))

/-- What point t writes back into the first result is block t of the product of the arrays the region finds. -/
theorem flushed0_3 (c : Dev nD) (t : Fin cfg0.N) :
    (dat0 V c).flushed 3 t = ((cfg0.win 3).blk t).view.read (Elt Ideal) (prod (V c main_arg0) (V c main_arg6)) := by
  show (cfg0.win 3).cut (grid0.coords t) ((dat0 V c).after 3 t) = _
  rw [after0_3]
  unfold out0_3
  rw [View.canon_unit_zero hz]
  simp only [View.ld_unit_zero (S := S2000x768) hz, View.ld_unit_zero (S := S768x256) hz]
  obtain ⟨e00, e01, e10, e11, e20, e21, e30, e31, e40, e41, ht⟩ := idx0 t
  funext y
  refine blockprod_xt (V c main_arg0) (V c main_arg6) (iblk0 V c 0 t) (iblk0 V c 1 t) y (((cfg0.win 3).blk t).view.emb y) ?_ ?_
  · intro q
    show V c main_arg0 (((cfg0.win 0).blk t).view.emb (ix2 (y 0) q)) = V c main_arg0 (ix2 ((((cfg0.win 3).blk t).view.emb y) 0) q)
    refine congrArg _ (funext fun a => Fin.ext ?_)
    match a with
    | ⟨0, _⟩ => show win0_0.index t (0 : Fin 2) * 2000 + 1 * (y 0).val = win0_3.index t (0 : Fin 2) * 2000 + 1 * (y 0).val; omega
    | ⟨1, _⟩ => show win0_0.index t (1 : Fin 2) * 768 + 1 * q.val = q.val; omega
  · intro q
    show V c main_arg6 (((cfg0.win 1).blk t).view.emb (ix2 q (y 1))) = V c main_arg6 (ix2 q ((((cfg0.win 3).blk t).view.emb y) 1))
    refine congrArg _ (funext fun a => Fin.ext ?_)
    match a with
    | ⟨0, _⟩ => show win0_1.index t (0 : Fin 2) * 768 + 1 * q.val = q.val; omega
    | ⟨1, _⟩ => show win0_1.index t (1 : Fin 2) * 256 + 1 * (y 1).val = win0_3.index t (1 : Fin 2) * 256 + 1 * (y 1).val; omega

/-- An index of the result array is in point t's block iff each coordinate is in the block's range on its axis. -/
theorem mem_blk0_3 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v4_0).slice (win0_3.rect t)).set ↔ _
  rw [View.set_slice_whole, Rect.mem_set_unit]
  exact Iff.rfl

/-- Every row lies in the block of the point numbered by its row divided by 2000. -/
theorem cover0_3' (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : grid0.N = 25 := N_0
  let t : Fin cfg0.N := ⟨(i 0).val / 2000, by show (i 0).val / 2000 < grid0.N; omega⟩
  obtain ⟨e00, e01, e10, e11, e20, e21, e30, e31, e40, e41, ht⟩ := idx0 t
  have e30' : win0_3.index t (0 : Fin 2) = (i 0).val / 2000 := e30
  refine ⟨t, flush0_3 t, ?_⟩
  rw [mem_blk0_3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- After the region the first result array is the whole product. -/
theorem final0_3 (c : Dev nD) : (dat0 V c).arrAt 3 cfg0.N = prod (V c main_arg0) (V c main_arg6) :=
  (dat0 V c).arrAt_eq_of_cover 3 (prod (V c main_arg0) (V c main_arg6)) (fun t _ => flushed0_3 V c t) cover0_3'

/-- What point t writes back into the second result is block t of the product of the arrays the region finds. -/
theorem flushed0_4 (c : Dev nD) (t : Fin cfg0.N) :
    (dat0 V c).flushed 4 t = ((cfg0.win 4).blk t).view.read (Elt Ideal) (prod (V c main_arg0) (V c main_arg7)) := by
  show (cfg0.win 4).cut (grid0.coords t) ((dat0 V c).after 4 t) = _
  rw [after0_4]
  unfold out0_4
  rw [View.canon_unit_zero hz]
  simp only [View.ld_unit_zero (S := S2000x768) hz, View.ld_unit_zero (S := S768x256) hz]
  obtain ⟨e00, e01, e10, e11, e20, e21, e30, e31, e40, e41, ht⟩ := idx0 t
  funext y
  refine blockprod_root (V c main_arg0) (V c main_arg7) (iblk0 V c 0 t) (iblk0 V c 2 t) y (((cfg0.win 4).blk t).view.emb y) ?_ ?_
  · intro q
    show V c main_arg0 (((cfg0.win 0).blk t).view.emb (ix2 (y 0) q)) = V c main_arg0 (ix2 ((((cfg0.win 4).blk t).view.emb y) 0) q)
    refine congrArg _ (funext fun a => Fin.ext ?_)
    match a with
    | ⟨0, _⟩ => show win0_0.index t (0 : Fin 2) * 2000 + 1 * (y 0).val = win0_4.index t (0 : Fin 2) * 2000 + 1 * (y 0).val; omega
    | ⟨1, _⟩ => show win0_0.index t (1 : Fin 2) * 768 + 1 * q.val = q.val; omega
  · intro q
    show V c main_arg7 (((cfg0.win 2).blk t).view.emb (ix2 q (y 1))) = V c main_arg7 (ix2 q ((((cfg0.win 4).blk t).view.emb y) 1))
    refine congrArg _ (funext fun a => Fin.ext ?_)
    match a with
    | ⟨0, _⟩ => show win0_2.index t (0 : Fin 2) * 768 + 1 * q.val = q.val; omega
    | ⟨1, _⟩ => show win0_2.index t (1 : Fin 2) * 256 + 1 * (y 1).val = win0_4.index t (1 : Fin 2) * 256 + 1 * (y 1).val; omega

/-- An index of the result array is in point t's block iff each coordinate is in the block's range on its axis. -/
theorem mem_blk0_4 (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v4_1).slice (win0_4.rect t)).set ↔ _
  rw [View.set_slice_whole, Rect.mem_set_unit]
  exact Iff.rfl

/-- Every row lies in the block of the point numbered by its row divided by 2000. -/
theorem cover0_4' (i : S50000x256.Idx) : ∃ t : Fin cfg0.N, (cfg0.win 4).flush t = true ∧ i ∈ ((cfg0.win 4).blk t).view.set := by
  have hi0 : (i 0).val < 50000 := (i 0).isLt
  have hi1 : (i 1).val < 256 := (i 1).isLt
  have hN : grid0.N = 25 := N_0
  let t : Fin cfg0.N := ⟨(i 0).val / 2000, by show (i 0).val / 2000 < grid0.N; omega⟩
  obtain ⟨e00, e01, e10, e11, e20, e21, e30, e31, e40, e41, ht⟩ := idx0 t
  have e40' : win0_4.index t (0 : Fin 2) = (i 0).val / 2000 := e40
  refine ⟨t, flush0_4 t, ?_⟩
  rw [mem_blk0_4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 256 ≤ (i 1).val ∧ (i 1).val < win0_4.index t (1 : Fin 2) * 256 + 256; omega

/-- After the region the second result array is the whole product. -/
theorem final0_4 (c : Dev nD) : (dat0 V c).arrAt 4 cfg0.N = prod (V c main_arg0) (V c main_arg7) :=
  (dat0 V c).arrAt_eq_of_cover 4 (prod (V c main_arg0) (V c main_arg7)) (fun t _ => flushed0_4 V c t) cover0_4'

end Cert.KernelIdeal.Whole

end
-- ==== Proof.Region1.lean ====
/-
  The second region: each of its 25 grid points takes 2000 rows of the first layer's aggregate, root term and dropout
  samples, the bias row and both second-layer weight matrices; in the block it forms the first epilogue
  h = max((agg + root + b)·keep(drop), 0) and writes back 2000 rows of h·W for each weight matrix. Row n of h depends on
  row n of the three row-blocked arrays only, so the 25 row blocks give the plain product of the whole epilogue array
  with each weight matrix. The widened comparison bit read as a signed integer is the bit read as a natural number.
-/
import proofs.«144004_j57767310131498_2_alg».proof.Proof.Gen.KernelIdeal.Frame
import proofs.«144004_j57767310131498_2_alg».proof.Proof.LibPlainDot
import proofs.«144004_j57767310131498_2_alg».proof.Proof.Spec
import Idealize.ShloMosaic.Lib.Pipeline.Value
import Idealize.ShloMosaic.Lib.ValueLayout
import Idealize.ShloMosaic.Lib.ValueIdx
import Idealize.ShloMosaic.PureOps.Ideal.Laws
set_option maxRecDepth 16384

noncomputable section

open scoped BigOperators

namespace Cert.KernelIdeal.Whole

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

theorem hz1 : (![0, 0] : Fin 2 → Nat) = fun _ => 0 := funext fun a => by fin_cases a <;> rfl

/-- The first epilogue inside a block, at entry (p, q). -/
theorem pay1_h (d a r : Vec Ideal S2000x256 .f32) (bb : Vec Ideal S1x256 .f32) (p : Fin 2000) (q : Fin 256) :
    k1_pay1 (F := Ideal) d a r bb (ix2 p q)
      = FloatOps.maximumf (F := Ideal) (φ := .f32)
          (FloatOps.mulf (F := Ideal) (φ := .f32)
            (FloatOps.addf (F := Ideal) (φ := .f32) (FloatOps.addf (F := Ideal) (φ := .f32) (a (ix2 p q)) (r (ix2 p q))) (bb (ix2 (0 : Fin 1) q)))
            (keep (d (ix2 p q))))
          (FloatOps.ofBits (F := Ideal) .f32 0x00000000#32) := by
  unfold k1_pay1
  simp only [shapeCast_self]
  have hb : broadcastTo S2000x256 bb broadcasts_S1x256_S2000x256 (ix2 p q) = bb (ix2 (0 : Fin 1) q) :=
    broadcastTo_apply bb broadcasts_S1x256_S2000x256 (ix2 p q) (ix2 (0 : Fin 1) q) (fun a => by
      match a with
      | ⟨0, _⟩ => show (0 : ℕ) = if (1 : ℕ) = 1 then 0 else _; rw [if_pos rfl]
      | ⟨1, _⟩ => show q.val = if (256 : ℕ) = 1 then 0 else q.val; rw [if_neg (by decide)])
  have hk : FloatOps.sitofp (F := Ideal) .f32 ((FloatOps.cmpf (F := Ideal) (φ := .f32) .oge (d (ix2 p q)) (FloatOps.ofBits (F := Ideal) .f32 0x3ECCCCCD#32)).setWidth 32)
      = FloatOps.uitofp (F := Ideal) .f32 (FloatOps.cmpf (F := Ideal) (φ := .f32) .oge (d (ix2 p q)) (FloatOps.ofBits (F := Ideal) .f32 0x3ECCCCCD#32)) :=
    congrArg (fun x : ℝ => (x : EReal)) (bit_widen (FloatOps.cmpf (F := Ideal) (φ := .f32) .oge (d (ix2 p q)) (FloatOps.ofBits (F := Ideal) .f32 0x3ECCCCCD#32)))
  show FloatOps.maximumf (F := Ideal) (φ := .f32)
      (FloatOps.mulf (F := Ideal) (φ := .f32)
        (FloatOps.addf (F := Ideal) (φ := .f32) (FloatOps.addf (F := Ideal) (φ := .f32) (a (ix2 p q)) (r (ix2 p q))) (broadcastTo S2000x256 bb broadcasts_S1x256_S2000x256 (ix2 p q)))
        (FloatOps.mulf (F := Ideal) (φ := .f32)
          (FloatOps.sitofp (F := Ideal) .f32 ((FloatOps.cmpf (F := Ideal) (φ := .f32) .oge (d (ix2 p q)) (FloatOps.ofBits (F := Ideal) .f32 0x3ECCCCCD#32)).setWidth 32))
          (FloatOps.ofBits (F := Ideal) .f32 0x3FD55555#32)))
      (FloatOps.ofBits (F := Ideal) .f32 0x00000000#32) = _
  rw [hb, hk]
  rfl

/-- The block's two products at entry (p, j): sums over the 256 hidden coordinates. -/
theorem pay1_xt (d a r : Vec Ideal S2000x256 .f32) (bb : Vec Ideal S1x256 .f32) (w : Vec Ideal S256x9 .f32) (p : Fin 2000) (j : Fin 9) :
    k1_pay2 (F := Ideal) d a r bb w (ix2 p j) = ∑ q : Fin 256, k1_pay1 (F := Ideal) d a r bb (ix2 p q) * w (ix2 q j) :=
  Cert.PlainDot.matmul_zero_apply (φ₁ := .bf16) (φ₂ := .bf16) (d := dot_S2000x256_S256x9_S2000x9_1_0_0_1_n_n) ⟨rfl, rfl, rfl, rfl, rfl, rfl⟩ none
    (k1_pay1 (F := Ideal) d a r bb) w p j

theorem pay1_root (d a r : Vec Ideal S2000x256 .f32) (bb : Vec Ideal S1x256 .f32) (w : Vec Ideal S256x9 .f32) (p : Fin 2000) (j : Fin 9) :
    k1_pay3 (F := Ideal) d a r bb w (ix2 p j) = ∑ q : Fin 256, k1_pay1 (F := Ideal) d a r bb (ix2 p q) * w (ix2 q j) :=
  Cert.PlainDot.matmul_zero_apply (φ₁ := .bf16) (φ₂ := .bf16) (d := dot_S2000x256_S256x9_S2000x9_1_0_0_1_n_n) ⟨rfl, rfl, rfl, rfl, rfl, rfl⟩ none
    (k1_pay1 (F := Ideal) d a r bb) w p j

/-- A block of the second-layer product from blocks of its inputs. -/
theorem blockprod1_xt (AGG ROOT DROP : S50000x256.Idx → EReal) (B : S256.Idx → EReal) (Wm : S256x9.Idx → EReal)
    (d a r : Vec Ideal S2000x256 .f32) (bb : Vec Ideal S1x256 .f32) (wb : Vec Ideal S256x9 .f32) (y : S2000x9.Idx) (i : S50000x9.Idx)
    (ha : ∀ q : Fin 256, a (ix2 (y 0) q) = AGG (ix2 (i 0) q)) (hr : ∀ q : Fin 256, r (ix2 (y 0) q) = ROOT (ix2 (i 0) q))
    (hd : ∀ q : Fin 256, d (ix2 (y 0) q) = DROP (ix2 (i 0) q)) (hbb : ∀ q : Fin 256, bb (ix2 (0 : Fin 1) q) = B (ix1 q))
    (hw : ∀ q : Fin 256, wb (ix2 q (y 1)) = Wm (ix2 q (i 1))) :
    k1_pay2 (F := Ideal) d a r bb wb y = prod (epi AGG ROOT B DROP) Wm i := by
  obtain ⟨p, j, rfl⟩ : ∃ (p : Fin 2000) (j : Fin 9), y = ix2 p j := ⟨y 0, y 1, eq_ix2 y⟩
  have ha' : ∀ q : Fin 256, a (ix2 p q) = AGG (ix2 (i 0) q) := ha
  have hr' : ∀ q : Fin 256, r (ix2 p q) = ROOT (ix2 (i 0) q) := hr
  have hd' : ∀ q : Fin 256, d (ix2 p q) = DROP (ix2 (i 0) q) := hd
  have hw' : ∀ q : Fin 256, wb (ix2 q j) = Wm (ix2 q (i 1)) := hw
  rw [pay1_xt]
  refine Finset.sum_congr rfl fun q _ => ?_
  rw [pay1_h, ha' q, hr' q, hd' q, hbb q, hw' q]
  rfl

theorem blockprod1_root (AGG ROOT DROP : S50000x256.Idx → EReal) (B : S256.Idx → EReal) (Wm : S256x9.Idx → EReal)
    (d a r : Vec Ideal S2000x256 .f32) (bb : Vec Ideal S1x256 .f32) (wb : Vec Ideal S256x9 .f32) (y : S2000x9.Idx) (i : S50000x9.Idx)
    (ha : ∀ q : Fin 256, a (ix2 (y 0) q) = AGG (ix2 (i 0) q)) (hr : ∀ q : Fin 256, r (ix2 (y 0) q) = ROOT (ix2 (i 0) q))
    (hd : ∀ q : Fin 256, d (ix2 (y 0) q) = DROP (ix2 (i 0) q)) (hbb : ∀ q : Fin 256, bb (ix2 (0 : Fin 1) q) = B (ix1 q))
    (hw : ∀ q : Fin 256, wb (ix2 q (y 1)) = Wm (ix2 q (i 1))) :
    k1_pay3 (F := Ideal) d a r bb wb y = prod (epi AGG ROOT B DROP) Wm i := by
  obtain ⟨p, j, rfl⟩ : ∃ (p : Fin 2000) (j : Fin 9), y = ix2 p j := ⟨y 0, y 1, eq_ix2 y⟩
  have ha' : ∀ q : Fin 256, a (ix2 p q) = AGG (ix2 (i 0) q) := ha
  have hr' : ∀ q : Fin 256, r (ix2 p q) = ROOT (ix2 (i 0) q) := hr
  have hd' : ∀ q : Fin 256, d (ix2 p q) = DROP (ix2 (i 0) q) := hd
  have hw' : ∀ q : Fin 256, wb (ix2 q j) = Wm (ix2 q (i 1)) := hw
  rw [pay1_root]
  refine Finset.sum_congr rfl fun q _ => ?_
  rw [pay1_h, ha' q, hr' q, hd' q, hbb q, hw' q]
  rfl

/-- The printed index maps over the grid: the row-blocked windows sit at block row t, the others at the origin. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 ∧ t.val < 25 :=
  (by decide +kernel : ∀ t : Fin grid1.N, _)

variable (V : (c : Dev nD) → (b : Ref sig .tc) → Buf (Elt Ideal) ((c : Thread nD τ).loc b))

/-- What point t writes back into the first result is block t of the product of the whole epilogue array with the
    first weight matrix, B being the bias vector the region finds reshaped to one row. -/
theorem flushed1_6 (c : Dev nD) (B : S256.Idx → EReal) (hB : ∀ q : Fin 256, V c main_v46 (ix2 (0 : Fin 1) q) = B (ix1 q)) (t : Fin cfg1.N) :
    (dat1 V c).flushed 6 t = ((cfg1.win 6).blk t).view.read (Elt Ideal)
      (prod (epi (V c main_v45) (V c main_v4_1) B (V c main_arg4)) (V c main_arg13)) := by
  show (cfg1.win 6).cut (grid1.coords t) ((dat1 V c).after 6 t) = _
  rw [after1_6]
  unfold out1_6
  rw [View.canon_unit_zero hz1]
  simp only [View.ld_unit_zero (S := S2000x256) hz1, View.ld_unit_zero (S := S1x256) hz1, View.ld_unit_zero (S := S256x9) hz1]
  obtain ⟨e00, e01, e10, e11, e20, e21, e30, e31, e40, e41, e50, e51, e60, e61, e70, e71, ht⟩ := idx1 t
  funext y
  refine blockprod1_xt (V c main_v45) (V c main_v4_1) (V c main_arg4) B (V c main_arg13)
    (iblk1 V c 3 t) (iblk1 V c 0 t) (iblk1 V c 1 t) (iblk1 V c 2 t) (iblk1 V c 4 t) y (((cfg1.win 6).blk t).view.emb y) ?_ ?_ ?_ ?_ ?_
  · intro q
    show V c main_v45 (((cfg1.win 0).blk t).view.emb (ix2 (y 0) q)) = V c main_v45 (ix2 ((((cfg1.win 6).blk t).view.emb y) 0) q)
    refine congrArg _ (funext fun a => Fin.ext ?_)
    match a with
    | ⟨0, _⟩ => show win1_0.index t (0 : Fin 2) * 2000 + 1 * (y 0).val = win1_6.index t (0 : Fin 2) * 2000 + 1 * (y 0).val; omega
    | ⟨1, _⟩ => show win1_0.index t (1 : Fin 2) * 256 + 1 * q.val = q.val; omega
  · intro q
    show V c main_v4_1 (((cfg1.win 1).blk t).view.emb (ix2 (y 0) q)) = V c main_v4_1 (ix2 ((((cfg1.win 6).blk t).view.emb y) 0) q)
    refine congrArg _ (funext fun a => Fin.ext ?_)
    match a with
    | ⟨0, _⟩ => show win1_1.index t (0 : Fin 2) * 2000 + 1 * (y 0).val = win1_6.index t (0 : Fin 2) * 2000 + 1 * (y 0).val; omega
    | ⟨1, _⟩ => show win1_1.index t (1 : Fin 2) * 256 + 1 * q.val = q.val; omega
  · intro q
    show V c main_arg4 (((cfg1.win 3).blk t).view.emb (ix2 (y 0) q)) = V c main_arg4 (ix2 ((((cfg1.win 6).blk t).view.emb y) 0) q)
    refine congrArg _ (funext fun a => Fin.ext ?_)
    match a with
    | ⟨0, _⟩ => show win1_3.index t (0 : Fin 2) * 2000 + 1 * (y 0).val = win1_6.index t (0 : Fin 2) * 2000 + 1 * (y 0).val; omega
    | ⟨1, _⟩ => show win1_3.index t (1 : Fin 2) * 256 + 1 * q.val = q.val; omega
  · intro q
    refine Eq.trans ?_ (hB q)
    show V c main_v46 (((cfg1.win 2).blk t).view.emb (ix2 (0 : Fin 1) q)) = V c main_v46 (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 256 + 1 * q.val = q.val; omega
  · intro q
    show V c main_arg13 (((cfg1.win 4).blk t).view.emb (ix2 q (y 1))) = V c main_arg13 (ix2 q ((((cfg1.win 6).blk t).view.emb y) 1))
    refine congrArg _ (funext fun a => Fin.ext ?_)
    match a with
    | ⟨0, _⟩ => show win1_4.index t (0 : Fin 2) * 256 + 1 * q.val = q.val; omega
    | ⟨1, _⟩ => show win1_4.index t (1 : Fin 2) * 9 + 1 * (y 1).val = win1_6.index t (1 : Fin 2) * 9 + 1 * (y 1).val; omega

/-- An index of the result array is in point t's block iff each coordinate is in the block's range on its axis. -/
theorem mem_blk1_6 (t : Fin cfg1.N) (i : S50000x9.Idx) :
    i ∈ ((cfg1.win 6).blk t).view.set ↔ ∀ a : Fin 2, win1_6.index t a * S2000x9.size a ≤ (i a).val ∧ (i a).val < win1_6.index t a * S2000x9.size a + S2000x9.size a := by
  show i ∈ ((View.whole main_v47_0).slice (win1_6.rect t)).set ↔ _
  rw [View.set_slice_whole, Rect.mem_set_unit]
  exact Iff.rfl

/-- Every row lies in the block of the point numbered by its row divided by 2000. -/
theorem cover1_6' (i : S50000x9.Idx) : ∃ t : Fin cfg1.N, (cfg1.win 6).flush t = true ∧ i ∈ ((cfg1.win 6).blk t).view.set := by
  have hi0 : (i 0).val < 50000 := (i 0).isLt
  have hi1 : (i 1).val < 9 := (i 1).isLt
  have hN : grid1.N = 25 := N_1
  let t : Fin cfg1.N := ⟨(i 0).val / 2000, by show (i 0).val / 2000 < grid1.N; omega⟩
  obtain ⟨e00, e01, e10, e11, e20, e21, e30, e31, e40, e41, e50, e51, e60, e61, e70, e71, ht⟩ := idx1 t
  have e60' : win1_6.index t (0 : Fin 2) = (i 0).val / 2000 := e60
  refine ⟨t, flush1_6 t, ?_⟩
  rw [mem_blk1_6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 9 ≤ (i 1).val ∧ (i 1).val < win1_6.index t (1 : Fin 2) * 9 + 9; omega

/-- After the region the first result array is the whole product. -/
theorem final1_6 (c : Dev nD) (B : S256.Idx → EReal) (hB : ∀ q : Fin 256, V c main_v46 (ix2 (0 : Fin 1) q) = B (ix1 q)) :
    (dat1 V c).arrAt 6 cfg1.N = prod (epi (V c main_v45) (V c main_v4_1) B (V c main_arg4)) (V c main_arg13) :=
  (dat1 V c).arrAt_eq_of_cover 6 _ (fun t _ => flushed1_6 V c B hB t) cover1_6'

/-- What point t writes back into the second result is block t of the product of the whole epilogue array with the
    second weight matrix, B being the bias vector the region finds reshaped to one row. -/
theorem flushed1_7 (c : Dev nD) (B : S256.Idx → EReal) (hB : ∀ q : Fin 256, V c main_v46 (ix2 (0 : Fin 1) q) = B (ix1 q)) (t : Fin cfg1.N) :
    (dat1 V c).flushed 7 t = ((cfg1.win 7).blk t).view.read (Elt Ideal)
      (prod (epi (V c main_v45) (V c main_v4_1) B (V c main_arg4)) (V c main_arg14)) := by
  show (cfg1.win 7).cut (grid1.coords t) ((dat1 V c).after 7 t) = _
  rw [after1_7]
  unfold out1_7
  rw [View.canon_unit_zero hz1]
  simp only [View.ld_unit_zero (S := S2000x256) hz1, View.ld_unit_zero (S := S1x256) hz1, View.ld_unit_zero (S := S256x9) hz1]
  obtain ⟨e00, e01, e10, e11, e20, e21, e30, e31, e40, e41, e50, e51, e60, e61, e70, e71, ht⟩ := idx1 t
  funext y
  refine blockprod1_root (V c main_v45) (V c main_v4_1) (V c main_arg4) B (V c main_arg14)
    (iblk1 V c 3 t) (iblk1 V c 0 t) (iblk1 V c 1 t) (iblk1 V c 2 t) (iblk1 V c 5 t) y (((cfg1.win 7).blk t).view.emb y) ?_ ?_ ?_ ?_ ?_
  · intro q
    show V c main_v45 (((cfg1.win 0).blk t).view.emb (ix2 (y 0) q)) = V c main_v45 (ix2 ((((cfg1.win 7).blk t).view.emb y) 0) q)
    refine congrArg _ (funext fun a => Fin.ext ?_)
    match a with
    | ⟨0, _⟩ => show win1_0.index t (0 : Fin 2) * 2000 + 1 * (y 0).val = win1_7.index t (0 : Fin 2) * 2000 + 1 * (y 0).val; omega
    | ⟨1, _⟩ => show win1_0.index t (1 : Fin 2) * 256 + 1 * q.val = q.val; omega
  · intro q
    show V c main_v4_1 (((cfg1.win 1).blk t).view.emb (ix2 (y 0) q)) = V c main_v4_1 (ix2 ((((cfg1.win 7).blk t).view.emb y) 0) q)
    refine congrArg _ (funext fun a => Fin.ext ?_)
    match a with
    | ⟨0, _⟩ => show win1_1.index t (0 : Fin 2) * 2000 + 1 * (y 0).val = win1_7.index t (0 : Fin 2) * 2000 + 1 * (y 0).val; omega
    | ⟨1, _⟩ => show win1_1.index t (1 : Fin 2) * 256 + 1 * q.val = q.val; omega
  · intro q
    show V c main_arg4 (((cfg1.win 3).blk t).view.emb (ix2 (y 0) q)) = V c main_arg4 (ix2 ((((cfg1.win 7).blk t).view.emb y) 0) q)
    refine congrArg _ (funext fun a => Fin.ext ?_)
    match a with
    | ⟨0, _⟩ => show win1_3.index t (0 : Fin 2) * 2000 + 1 * (y 0).val = win1_7.index t (0 : Fin 2) * 2000 + 1 * (y 0).val; omega
    | ⟨1, _⟩ => show win1_3.index t (1 : Fin 2) * 256 + 1 * q.val = q.val; omega
  · intro q
    refine Eq.trans ?_ (hB q)
    show V c main_v46 (((cfg1.win 2).blk t).view.emb (ix2 (0 : Fin 1) q)) = V c main_v46 (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 256 + 1 * q.val = q.val; omega
  · intro q
    show V c main_arg14 (((cfg1.win 5).blk t).view.emb (ix2 q (y 1))) = V c main_arg14 (ix2 q ((((cfg1.win 7).blk t).view.emb y) 1))
    refine congrArg _ (funext fun a => Fin.ext ?_)
    match a with
    | ⟨0, _⟩ => show win1_5.index t (0 : Fin 2) * 256 + 1 * q.val = q.val; omega
    | ⟨1, _⟩ => show win1_5.index t (1 : Fin 2) * 9 + 1 * (y 1).val = win1_7.index t (1 : Fin 2) * 9 + 1 * (y 1).val; omega

/-- An index of the result array is in point t's block iff each coordinate is in the block's range on its axis. -/
theorem mem_blk1_7 (t : Fin cfg1.N) (i : S50000x9.Idx) :
    i ∈ ((cfg1.win 7).blk t).view.set ↔ ∀ a : Fin 2, win1_7.index t a * S2000x9.size a ≤ (i a).val ∧ (i a).val < win1_7.index t a * S2000x9.size a + S2000x9.size a := by
  show i ∈ ((View.whole main_v47_1).slice (win1_7.rect t)).set ↔ _
  rw [View.set_slice_whole, Rect.mem_set_unit]
  exact Iff.rfl

/-- Every row lies in the block of the point numbered by its row divided by 2000. -/
theorem cover1_7' (i : S50000x9.Idx) : ∃ t : Fin cfg1.N, (cfg1.win 7).flush t = true ∧ i ∈ ((cfg1.win 7).blk t).view.set := by
  have hi0 : (i 0).val < 50000 := (i 0).isLt
  have hi1 : (i 1).val < 9 := (i 1).isLt
  have hN : grid1.N = 25 := N_1
  let t : Fin cfg1.N := ⟨(i 0).val / 2000, by show (i 0).val / 2000 < grid1.N; omega⟩
  obtain ⟨e00, e01, e10, e11, e20, e21, e30, e31, e40, e41, e50, e51, e60, e61, e70, e71, ht⟩ := idx1 t
  have e70' : win1_7.index t (0 : Fin 2) = (i 0).val / 2000 := e70
  refine ⟨t, flush1_7 t, ?_⟩
  rw [mem_blk1_7]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 9 ≤ (i 1).val ∧ (i 1).val < win1_7.index t (1 : Fin 2) * 9 + 9; omega

/-- After the region the second result array is the whole product. -/
theorem final1_7 (c : Dev nD) (B : S256.Idx → EReal) (hB : ∀ q : Fin 256, V c main_v46 (ix2 (0 : Fin 1) q) = B (ix1 q)) :
    (dat1 V c).arrAt 7 cfg1.N = prod (epi (V c main_v45) (V c main_v4_1) B (V c main_arg4)) (V c main_arg14) :=
  (dat1 V c).arrAt_eq_of_cover 7 _ (fun t _ => flushed1_7 V c B hB t) cover1_7'

end Cert.KernelIdeal.Whole

end
-- ==== Proof.Region2.lean ====
/-
  The last region: each of its 25 grid points takes 2000 rows of the second layer's aggregate, root term and dropout
  samples and the bias row, and writes back 2000 rows of the last epilogue max((agg + root + b)·keep(drop), 0). The body
  is pointwise in the three row-blocked arrays, so the 25 row blocks give the whole epilogue array.
-/
import proofs.«144004_j57767310131498_2_alg».proof.Proof.Gen.KernelIdeal.Frame
import proofs.«144004_j57767310131498_2_alg».proof.Proof.Spec
import Idealize.ShloMosaic.Lib.Pipeline.Value
import Idealize.ShloMosaic.Lib.ValueLayout
import Idealize.ShloMosaic.Lib.ValueIdx
import Idealize.ShloMosaic.PureOps.Ideal.Laws
set_option maxRecDepth 16384

noncomputable section

open scoped BigOperators

namespace Cert.KernelIdeal.Whole

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

theorem hz2 : (![0, 0] : Fin 2 → Nat) = fun _ => 0 := funext fun a => by fin_cases a <;> rfl

/-- The last epilogue inside a block, at entry (p, q). -/
theorem pay2_h (d a r : Vec Ideal S2000x9 .f32) (bb : Vec Ideal S1x9 .f32) (p : Fin 2000) (q : Fin 9) :
    k2_pay1 (F := Ideal) d a r bb (ix2 p q)
      = FloatOps.maximumf (F := Ideal) (φ := .f32)
          (FloatOps.mulf (F := Ideal) (φ := .f32)
            (FloatOps.addf (F := Ideal) (φ := .f32) (FloatOps.addf (F := Ideal) (φ := .f32) (a (ix2 p q)) (r (ix2 p q))) (bb (ix2 (0 : Fin 1) q)))
            (keep (d (ix2 p q))))
          (FloatOps.ofBits (F := Ideal) .f32 0x00000000#32) := by
  unfold k2_pay1
  simp only [shapeCast_self]
  have hb : broadcastTo S2000x9 bb broadcasts_S1x9_S2000x9 (ix2 p q) = bb (ix2 (0 : Fin 1) q) :=
    broadcastTo_apply bb broadcasts_S1x9_S2000x9 (ix2 p q) (ix2 (0 : Fin 1) q) (fun a => by
      match a with
      | ⟨0, _⟩ => show (0 : ℕ) = if (1 : ℕ) = 1 then 0 else _; rw [if_pos rfl]
      | ⟨1, _⟩ => show q.val = if (9 : ℕ) = 1 then 0 else q.val; rw [if_neg (by decide)])
  have hk : FloatOps.sitofp (F := Ideal) .f32 ((FloatOps.cmpf (F := Ideal) (φ := .f32) .oge (d (ix2 p q)) (FloatOps.ofBits (F := Ideal) .f32 0x3ECCCCCD#32)).setWidth 32)
      = FloatOps.uitofp (F := Ideal) .f32 (FloatOps.cmpf (F := Ideal) (φ := .f32) .oge (d (ix2 p q)) (FloatOps.ofBits (F := Ideal) .f32 0x3ECCCCCD#32)) :=
    congrArg (fun x : ℝ => (x : EReal)) (bit_widen (FloatOps.cmpf (F := Ideal) (φ := .f32) .oge (d (ix2 p q)) (FloatOps.ofBits (F := Ideal) .f32 0x3ECCCCCD#32)))
  show FloatOps.maximumf (F := Ideal) (φ := .f32)
      (FloatOps.mulf (F := Ideal) (φ := .f32)
        (FloatOps.addf (F := Ideal) (φ := .f32) (FloatOps.addf (F := Ideal) (φ := .f32) (a (ix2 p q)) (r (ix2 p q))) (broadcastTo S2000x9 bb broadcasts_S1x9_S2000x9 (ix2 p q)))
        (FloatOps.mulf (F := Ideal) (φ := .f32)
          (FloatOps.sitofp (F := Ideal) .f32 ((FloatOps.cmpf (F := Ideal) (φ := .f32) .oge (d (ix2 p q)) (FloatOps.ofBits (F := Ideal) .f32 0x3ECCCCCD#32)).setWidth 32))
          (FloatOps.ofBits (F := Ideal) .f32 0x3FD55555#32)))
      (FloatOps.ofBits (F := Ideal) .f32 0x00000000#32) = _
  rw [hb, hk]
  rfl

/-- A block of the last epilogue from blocks of its inputs. -/
theorem blockepi2 (AGG ROOT DROP : S50000x9.Idx → EReal) (B : S9.Idx → EReal)
    (d a r : Vec Ideal S2000x9 .f32) (bb : Vec Ideal S1x9 .f32) (y : S2000x9.Idx) (i : S50000x9.Idx)
    (ha : a y = AGG i) (hr : r y = ROOT i) (hd : d y = DROP i) (hbb : bb (ix2 (0 : Fin 1) (y 1)) = B (ix1 (i 1))) :
    k2_pay1 (F := Ideal) d a r bb y = epi AGG ROOT B DROP i := by
  obtain ⟨p, q, rfl⟩ : ∃ (p : Fin 2000) (q : Fin 9), y = ix2 p q := ⟨y 0, y 1, eq_ix2 y⟩
  have hbb' : bb (ix2 (0 : Fin 1) q) = B (ix1 (i 1)) := hbb
  rw [pay2_h, ha, hr, hd, hbb']
  rfl

/-- The printed index maps over the grid: the row-blocked windows sit at block row t, the bias window at the origin. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 ∧ t.val < 25 :=
  (by decide +kernel : ∀ t : Fin grid2.N, _)

variable (V : (c : Dev nD) → (b : Ref sig .tc) → Buf (Elt Ideal) ((c : Thread nD τ).loc b))

/-- What point t writes back is block t of the whole epilogue array, B being the bias vector the region finds reshaped
    to one row. -/
theorem flushed2_4 (c : Dev nD) (B : S9.Idx → EReal) (hB : ∀ q : Fin 9, V c main_v89 (ix2 (0 : Fin 1) q) = B (ix1 q)) (t : Fin cfg2.N) :
    (dat2 V c).flushed 4 t = ((cfg2.win 4).blk t).view.read (Elt Ideal)
      (epi (V c main_v88) (V c main_v47_1) B (V c main_arg5)) := by
  show (cfg2.win 4).cut (grid2.coords t) ((dat2 V c).after 4 t) = _
  rw [after2_4]
  unfold out2_4
  rw [View.canon_unit_zero hz2]
  simp only [View.ld_unit_zero (S := S2000x9) hz2, View.ld_unit_zero (S := S1x9) hz2]
  obtain ⟨e00, e01, e10, e11, e20, e21, e30, e31, e40, e41, ht⟩ := idx2 t
  funext y
  refine blockepi2 (V c main_v88) (V c main_v47_1) (V c main_arg5) B
    (iblk2 V c 3 t) (iblk2 V c 0 t) (iblk2 V c 1 t) (iblk2 V c 2 t) y (((cfg2.win 4).blk t).view.emb y) ?_ ?_ ?_ ?_
  · show V c main_v88 (((cfg2.win 0).blk t).view.emb y) = V c main_v88 (((cfg2.win 4).blk t).view.emb y)
    refine congrArg _ (funext fun a => Fin.ext ?_)
    match a with
    | ⟨0, _⟩ => show win2_0.index t (0 : Fin 2) * 2000 + 1 * (y 0).val = win2_4.index t (0 : Fin 2) * 2000 + 1 * (y 0).val; omega
    | ⟨1, _⟩ => show win2_0.index t (1 : Fin 2) * 9 + 1 * (y 1).val = win2_4.index t (1 : Fin 2) * 9 + 1 * (y 1).val; omega
  · show V c main_v47_1 (((cfg2.win 1).blk t).view.emb y) = V c main_v47_1 (((cfg2.win 4).blk t).view.emb y)
    refine congrArg _ (funext fun a => Fin.ext ?_)
    match a with
    | ⟨0, _⟩ => show win2_1.index t (0 : Fin 2) * 2000 + 1 * (y 0).val = win2_4.index t (0 : Fin 2) * 2000 + 1 * (y 0).val; omega
    | ⟨1, _⟩ => show win2_1.index t (1 : Fin 2) * 9 + 1 * (y 1).val = win2_4.index t (1 : Fin 2) * 9 + 1 * (y 1).val; omega
  · show V c main_arg5 (((cfg2.win 3).blk t).view.emb y) = V c main_arg5 (((cfg2.win 4).blk t).view.emb y)
    refine congrArg _ (funext fun a => Fin.ext ?_)
    match a with
    | ⟨0, _⟩ => show win2_3.index t (0 : Fin 2) * 2000 + 1 * (y 0).val = win2_4.index t (0 : Fin 2) * 2000 + 1 * (y 0).val; omega
    | ⟨1, _⟩ => show win2_3.index t (1 : Fin 2) * 9 + 1 * (y 1).val = win2_4.index t (1 : Fin 2) * 9 + 1 * (y 1).val; omega
  · have hy1 : (y 1).val < 9 := (y 1).isLt
    have h1 : ((((cfg2.win 4).blk t).view.emb y) 1).val = (y 1).val := by
      show win2_4.index t (1 : Fin 2) * 9 + 1 * (y 1).val = (y 1).val; omega
    have h2 : ((((cfg2.win 4).blk t).view.emb y) 1) = ⟨(y 1).val, hy1⟩ := Fin.ext h1
    rw [h2]
    refine Eq.trans ?_ (hB ⟨(y 1).val, hy1⟩)
    show V c main_v89 (((cfg2.win 2).blk t).view.emb (ix2 (0 : Fin 1) (y 1))) = V c main_v89 (ix2 (0 : Fin 1) ⟨(y 1).val, hy1⟩)
    refine congrArg _ (funext fun a => Fin.ext ?_)
    match a with
    | ⟨0, _⟩ => show win2_2.index t (0 : Fin 2) * 1 + 1 * 0 = 0; omega
    | ⟨1, _⟩ => show win2_2.index t (1 : Fin 2) * 9 + 1 * (y 1).val = (y 1).val; omega

/-- An index of the result array is in point t's block iff each coordinate is in the block's range on its axis. -/
theorem mem_blk2_4 (t : Fin cfg2.N) (i : S50000x9.Idx) :
    i ∈ ((cfg2.win 4).blk t).view.set ↔ ∀ a : Fin 2, win2_4.index t a * S2000x9.size a ≤ (i a).val ∧ (i a).val < win2_4.index t a * S2000x9.size a + S2000x9.size a := by
  show i ∈ ((View.whole main_v90).slice (win2_4.rect t)).set ↔ _
  rw [View.set_slice_whole, Rect.mem_set_unit]
  exact Iff.rfl

/-- Every row lies in the block of the point numbered by its row divided by 2000. -/
theorem cover2_4' (i : S50000x9.Idx) : ∃ t : Fin cfg2.N, (cfg2.win 4).flush t = true ∧ i ∈ ((cfg2.win 4).blk t).view.set := by
  have hi0 : (i 0).val < 50000 := (i 0).isLt
  have hi1 : (i 1).val < 9 := (i 1).isLt
  have hN : grid2.N = 25 := N_2
  let t : Fin cfg2.N := ⟨(i 0).val / 2000, by show (i 0).val / 2000 < grid2.N; omega⟩
  obtain ⟨e00, e01, e10, e11, e20, e21, e30, e31, e40, e41, ht⟩ := idx2 t
  have e40' : win2_4.index t (0 : Fin 2) = (i 0).val / 2000 := e40
  refine ⟨t, flush2_4 t, ?_⟩
  rw [mem_blk2_4]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 9 ≤ (i 1).val ∧ (i 1).val < win2_4.index t (1 : Fin 2) * 9 + 9; omega

/-- After the region the result array is the whole epilogue array. -/
theorem final2_4 (c : Dev nD) (B : S9.Idx → EReal) (hB : ∀ q : Fin 9, V c main_v89 (ix2 (0 : Fin 1) q) = B (ix1 q)) :
    (dat2 V c).arrAt 4 cfg2.N = epi (V c main_v88) (V c main_v47_1) B (V c main_arg5) :=
  (dat2 V c).arrAt_eq_of_cover 4 _ (fun t _ => flushed2_4 V c B hB t) cover2_4'

end Cert.KernelIdeal.Whole

end
-- ==== Proof.RefStages.lean ====
/-
  The reference program's stages as the two whole-array functions: its two first-layer products, its first epilogue,
  its two second-layer products and its last epilogue, each read at one index from the generated stage lemmas.
-/
import proofs.«144004_j57767310131498_2_alg».proof.Proof.Gen.ReferenceIdeal.Read
import proofs.«144004_j57767310131498_2_alg».proof.Proof.LibPlainDot
import proofs.«144004_j57767310131498_2_alg».proof.Proof.Spec
import Idealize.ShloMosaic.Lib.ValueIdx
set_option maxRecDepth 16384

noncomputable section

open scoped BigOperators

namespace Cert.RefStages

open Cert.ReferenceIdeal Cert.ReferenceIdeal.Read Cert.Spec
open Idealize.ShloMosaic Idealize.ShloMosaic.ValueIdx

variable (x0 : (⟨S50000x768, .f32⟩ : BufTy).Contents (Elt Ideal)) (x1 : (⟨S2x800000, .i32⟩ : BufTy).Contents (Elt Ideal)) (x2 : (⟨S800000, .i32⟩ : BufTy).Contents (Elt Ideal)) (x3 : (⟨S800000, .i32⟩ : BufTy).Contents (Elt Ideal)) (x4 : (⟨S50000x256, .f32⟩ : BufTy).Contents (Elt Ideal)) (x5 : (⟨S50000x9, .f32⟩ : BufTy).Contents (Elt Ideal)) (x6 : (⟨S768x256, .f32⟩ : BufTy).Contents (Elt Ideal)) (x7 : (⟨S768x256, .f32⟩ : BufTy).Contents (Elt Ideal)) (x8 : (⟨S256, .f32⟩ : BufTy).Contents (Elt Ideal)) (x9 : (⟨S50x100, .f32⟩ : BufTy).Contents (Elt Ideal)) (x10 : (⟨S128x100, .f32⟩ : BufTy).Contents (Elt Ideal)) (x11 : (⟨S200x1, .f32⟩ : BufTy).Contents (Elt Ideal)) (x12 : (⟨S1, .f32⟩ : BufTy).Contents (Elt Ideal)) (x13 : (⟨S256x9, .f32⟩ : BufTy).Contents (Elt Ideal)) (x14 : (⟨S256x9, .f32⟩ : BufTy).Contents (Elt Ideal)) (x15 : (⟨S9, .f32⟩ : BufTy).Contents (Elt Ideal)) (x16 : (⟨S50x100, .f32⟩ : BufTy).Contents (Elt Ideal)) (x17 : (⟨S128x100, .f32⟩ : BufTy).Contents (Elt Ideal)) (x18 : (⟨S200x1, .f32⟩ : BufTy).Contents (Elt Ideal)) (x19 : (⟨S1, .f32⟩ : BufTy).Contents (Elt Ideal))

theorem v39_eq : val_main_v39 (F := Ideal) x0 x6 = prod x0 x6 := by
  funext i
  obtain ⟨p, j, rfl⟩ : ∃ (p : Fin 50000) (j : Fin 256), i = ix2 p j := ⟨i 0, i 1, eq_ix2 i⟩
  exact Cert.PlainDot.dotGeneral_apply (d := dot_S50000x768_S768x256_S50000x256_1_0_0_1_n_n) ⟨rfl, rfl, rfl, rfl, rfl, rfl⟩ none x0 x6 p j

theorem v52_eq : val_main_v52 (F := Ideal) x0 x7 = prod x0 x7 := by
  funext i
  obtain ⟨p, j, rfl⟩ : ∃ (p : Fin 50000) (j : Fin 256), i = ix2 p j := ⟨i 0, i 1, eq_ix2 i⟩
  exact Cert.PlainDot.dotGeneral_apply (d := dot_S50000x768_S768x256_S50000x256_1_0_0_1_n_n) ⟨rfl, rfl, rfl, rfl, rfl, rfl⟩ none x0 x7 p j

theorem v58_eq : val_main_v58 (F := Ideal) x0 x1 x2 x3 x4 x6 x7 x8 x9 x10 x11 x12
    = epi (val_main_v51 (F := Ideal) x0 x1 x2 x3 x6 x9 x10 x11 x12) (val_main_v52 (F := Ideal) x0 x7) x8 x4 := by
  funext i
  rw [val_main_v58_apply, val_main_v57_apply, val_main_v56_apply, val_main_v53_apply, val_main_v55_apply, val_main_v54_apply,
    val_main_v8_apply, val_main_v6_apply, val_main_v5_apply, val_main_v4_apply, val_main_cst_apply, val_main_v7_apply,
    val_main_cst_0_apply, val_main_call0_v0_apply, val_main_call0_cst_apply]
  have hb : idx_main_v54 (idx_main_v55 i) = ix1 (i 1) := funext fun a => Fin.ext (by match a with | ⟨0, _⟩ => rfl)
  rw [hb]
  rfl

theorem v84_eq : val_main_v84 (F := Ideal) x0 x1 x2 x3 x4 x6 x7 x8 x9 x10 x11 x12 x13 = prod (val_main_v58 (F := Ideal) x0 x1 x2 x3 x4 x6 x7 x8 x9 x10 x11 x12) x13 := by
  funext i
  obtain ⟨p, j, rfl⟩ : ∃ (p : Fin 50000) (j : Fin 9), i = ix2 p j := ⟨i 0, i 1, eq_ix2 i⟩
  exact Cert.PlainDot.dotGeneral_apply (d := dot_S50000x256_S256x9_S50000x9_1_0_0_1_n_n) ⟨rfl, rfl, rfl, rfl, rfl, rfl⟩ none
    (val_main_v58 (F := Ideal) x0 x1 x2 x3 x4 x6 x7 x8 x9 x10 x11 x12) x13 p j

theorem v97_eq : val_main_v97 (F := Ideal) x0 x1 x2 x3 x4 x6 x7 x8 x9 x10 x11 x12 x14 = prod (val_main_v58 (F := Ideal) x0 x1 x2 x3 x4 x6 x7 x8 x9 x10 x11 x12) x14 := by
  funext i
  obtain ⟨p, j, rfl⟩ : ∃ (p : Fin 50000) (j : Fin 9), i = ix2 p j := ⟨i 0, i 1, eq_ix2 i⟩
  exact Cert.PlainDot.dotGeneral_apply (d := dot_S50000x256_S256x9_S50000x9_1_0_0_1_n_n) ⟨rfl, rfl, rfl, rfl, rfl, rfl⟩ none
    (val_main_v58 (F := Ideal) x0 x1 x2 x3 x4 x6 x7 x8 x9 x10 x11 x12) x14 p j

theorem v103_eq : val_main_v103 (F := Ideal) x0 x1 x2 x3 x4 x5 x6 x7 x8 x9 x10 x11 x12 x13 x14 x15 x16 x17 x18 x19
    = epi (val_main_v96 (F := Ideal) x0 x1 x2 x3 x4 x6 x7 x8 x9 x10 x11 x12 x13 x16 x17 x18 x19) (val_main_v97 (F := Ideal) x0 x1 x2 x3 x4 x6 x7 x8 x9 x10 x11 x12 x14) x15 x5 := by
  funext i
  rw [val_main_v103_apply, val_main_v102_apply, val_main_v101_apply, val_main_v98_apply, val_main_v100_apply, val_main_v99_apply,
    val_main_v13_apply, val_main_v11_apply, val_main_v10_apply, val_main_v9_apply, val_main_cst_1_apply, val_main_v12_apply,
    val_main_cst_2_apply, val_main_call1_v0_apply, val_main_call1_cst_apply]
  have hb : idx_main_v99 (idx_main_v100 i) = ix1 (i 1) := funext fun a => Fin.ext (by match a with | ⟨0, _⟩ => rfl)
  rw [hb]
  rfl

end Cert.RefStages

end
-- ==== Proof.KernelValue.lean ====
/-
  The idealized kernel's result as the reference's own stages of the launch arrays. Followed through the boundaries:
  the first region leaves the two first-layer products of the feature array; the next stretch gathers, gates and
  scatter-adds the first into the first aggregate — the same gather and scatter-add, at the same normalised indices, the
  reference applies to its own product, with a gate that is the same function of the inputs whether the 200-term
  contraction is done per edge or once per table row — and reshapes the bias; the second region leaves the two products of
  the first epilogue array; the last stretch and region repeat this for the second layer.
-/
import proofs.«144004_j57767310131498_2_alg».proof.Proof.Boundary
import proofs.«144004_j57767310131498_2_alg».proof.Proof.Region0
import proofs.«144004_j57767310131498_2_alg».proof.Proof.Region1
import proofs.«144004_j57767310131498_2_alg».proof.Proof.Region2
import proofs.«144004_j57767310131498_2_alg».proof.Proof.RefStages
import Idealize.ShloMosaic.Lib.ValueLayout
set_option maxRecDepth 16384

noncomputable section

open scoped BigOperators

namespace Cert.KernelIdeal.Whole

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)
open Cert.ReferenceIdeal.Read (val_main_v1 val_main_v3 val_main_v38 val_main_v39 val_main_v51 val_main_v52 val_main_v58 val_main_v83 val_main_v84 val_main_v96 val_main_v97 val_main_v103)

variable (m : (ℓ : Loc nD τ sig) → Buf (Elt Ideal) ℓ) (ρ : Dev nD → PrngReg) (c : Dev nD)

/-! ## The launch arrays at the boundaries where they are read -/

theorem w2a2 : W2 m ρ c (Proc.devRef .tc main_arg2) = (m ((c : Thread nD τ).loc main_arg2)) := (W2_keep_arg2 m ρ c).trans (W1_keep_arg2 m ρ c)
theorem w2a3 : W2 m ρ c (Proc.devRef .tc main_arg3) = (m ((c : Thread nD τ).loc main_arg3)) := (W2_keep_arg3 m ρ c).trans (W1_keep_arg3 m ρ c)
theorem w2a4 : W2 m ρ c (Proc.devRef .tc main_arg4) = (m ((c : Thread nD τ).loc main_arg4)) := (W2_keep_arg4 m ρ c).trans (W1_keep_arg4 m ρ c)
theorem w2a5 : W2 m ρ c (Proc.devRef .tc main_arg5) = (m ((c : Thread nD τ).loc main_arg5)) := (W2_keep_arg5 m ρ c).trans (W1_keep_arg5 m ρ c)
theorem w2a8 : W2 m ρ c (Proc.devRef .tc main_arg8) = (m ((c : Thread nD τ).loc main_arg8)) := (W2_keep_arg8 m ρ c).trans (W1_keep_arg8 m ρ c)
theorem w2a9 : W2 m ρ c (Proc.devRef .tc main_arg9) = (m ((c : Thread nD τ).loc main_arg9)) := (W2_keep_arg9 m ρ c).trans (W1_keep_arg9 m ρ c)
theorem w2a10 : W2 m ρ c (Proc.devRef .tc main_arg10) = (m ((c : Thread nD τ).loc main_arg10)) := (W2_keep_arg10 m ρ c).trans (W1_keep_arg10 m ρ c)
theorem w2a11 : W2 m ρ c (Proc.devRef .tc main_arg11) = (m ((c : Thread nD τ).loc main_arg11)) := (W2_keep_arg11 m ρ c).trans (W1_keep_arg11 m ρ c)
theorem w2a12 : W2 m ρ c (Proc.devRef .tc main_arg12) = (m ((c : Thread nD τ).loc main_arg12)) := (W2_keep_arg12 m ρ c).trans (W1_keep_arg12 m ρ c)
theorem w2a13 : W2 m ρ c (Proc.devRef .tc main_arg13) = (m ((c : Thread nD τ).loc main_arg13)) := (W2_keep_arg13 m ρ c).trans (W1_keep_arg13 m ρ c)
theorem w2a14 : W2 m ρ c (Proc.devRef .tc main_arg14) = (m ((c : Thread nD τ).loc main_arg14)) := (W2_keep_arg14 m ρ c).trans (W1_keep_arg14 m ρ c)
theorem w2a15 : W2 m ρ c (Proc.devRef .tc main_arg15) = (m ((c : Thread nD τ).loc main_arg15)) := (W2_keep_arg15 m ρ c).trans (W1_keep_arg15 m ρ c)
theorem w2a16 : W2 m ρ c (Proc.devRef .tc main_arg16) = (m ((c : Thread nD τ).loc main_arg16)) := (W2_keep_arg16 m ρ c).trans (W1_keep_arg16 m ρ c)
theorem w2a17 : W2 m ρ c (Proc.devRef .tc main_arg17) = (m ((c : Thread nD τ).loc main_arg17)) := (W2_keep_arg17 m ρ c).trans (W1_keep_arg17 m ρ c)
theorem w2a18 : W2 m ρ c (Proc.devRef .tc main_arg18) = (m ((c : Thread nD τ).loc main_arg18)) := (W2_keep_arg18 m ρ c).trans (W1_keep_arg18 m ρ c)
theorem w2a19 : W2 m ρ c (Proc.devRef .tc main_arg19) = (m ((c : Thread nD τ).loc main_arg19)) := (W2_keep_arg19 m ρ c).trans (W1_keep_arg19 m ρ c)
theorem w4a2 : W4 m ρ c (Proc.devRef .tc main_arg2) = (m ((c : Thread nD τ).loc main_arg2)) := (W4_keep_arg2 m ρ c).trans ((W3_keep_arg2 m ρ c).trans (w2a2 m ρ c))
theorem w4a3 : W4 m ρ c (Proc.devRef .tc main_arg3) = (m ((c : Thread nD τ).loc main_arg3)) := (W4_keep_arg3 m ρ c).trans ((W3_keep_arg3 m ρ c).trans (w2a3 m ρ c))
theorem w4a5 : W4 m ρ c (Proc.devRef .tc main_arg5) = (m ((c : Thread nD τ).loc main_arg5)) := (W4_keep_arg5 m ρ c).trans ((W3_keep_arg5 m ρ c).trans (w2a5 m ρ c))
theorem w4a15 : W4 m ρ c (Proc.devRef .tc main_arg15) = (m ((c : Thread nD τ).loc main_arg15)) := (W4_keep_arg15 m ρ c).trans ((W3_keep_arg15 m ρ c).trans (w2a15 m ρ c))
theorem w4a16 : W4 m ρ c (Proc.devRef .tc main_arg16) = (m ((c : Thread nD τ).loc main_arg16)) := (W4_keep_arg16 m ρ c).trans ((W3_keep_arg16 m ρ c).trans (w2a16 m ρ c))
theorem w4a17 : W4 m ρ c (Proc.devRef .tc main_arg17) = (m ((c : Thread nD τ).loc main_arg17)) := (W4_keep_arg17 m ρ c).trans ((W3_keep_arg17 m ρ c).trans (w2a17 m ρ c))
theorem w4a18 : W4 m ρ c (Proc.devRef .tc main_arg18) = (m ((c : Thread nD τ).loc main_arg18)) := (W4_keep_arg18 m ρ c).trans ((W3_keep_arg18 m ρ c).trans (w2a18 m ρ c))
theorem w4a19 : W4 m ρ c (Proc.devRef .tc main_arg19) = (m ((c : Thread nD τ).loc main_arg19)) := (W4_keep_arg19 m ρ c).trans ((W3_keep_arg19 m ρ c).trans (w2a19 m ρ c))

/-! ## The edge sources and destinations: the two rows of the edge index array -/

theorem src2 : W2 m ρ c (Proc.devRef .tc main_v1) = val_main_v1 (F := Ideal) (m ((c : Thread nD τ).loc main_arg1)) := (W2_keep_v1 m ρ c).trans (W1_v1 m ρ c)
theorem dst2 : W2 m ρ c (Proc.devRef .tc main_v3) = val_main_v3 (F := Ideal) (m ((c : Thread nD τ).loc main_arg1)) := (W2_keep_v3 m ρ c).trans (W1_v3 m ρ c)
theorem src4 : W4 m ρ c (Proc.devRef .tc main_v1) = val_main_v1 (F := Ideal) (m ((c : Thread nD τ).loc main_arg1)) := (W4_keep_v1 m ρ c).trans ((W3_keep_v1 m ρ c).trans (src2 m ρ c))
theorem dst4 : W4 m ρ c (Proc.devRef .tc main_v3) = val_main_v3 (F := Ideal) (m ((c : Thread nD τ).loc main_arg1)) := (W4_keep_v3 m ρ c).trans ((W3_keep_v3 m ρ c).trans (dst2 m ρ c))

/-! ## The first region: the two first-layer products -/

theorem xt1 : W2 m ρ c (Proc.devRef .tc main_v4_0) = val_main_v39 (F := Ideal) (m ((c : Thread nD τ).loc main_arg0)) (m ((c : Thread nD τ).loc main_arg6)) := by
  have v1a0 : V1 m ρ c main_arg0 = (m ((c : Thread nD τ).loc main_arg0)) := W1_keep_arg0 m ρ c
  have v1a6 : V1 m ρ c main_arg6 = (m ((c : Thread nD τ).loc main_arg6)) := W1_keep_arg6 m ρ c
  refine (W2_arr m ρ c 3).trans ((final0_3 (V1 m ρ) c).trans ?_)
  rw [v1a0, v1a6]
  exact (Cert.RefStages.v39_eq _ _).symm

theorem root1 : W2 m ρ c (Proc.devRef .tc main_v4_1) = val_main_v52 (F := Ideal) (m ((c : Thread nD τ).loc main_arg0)) (m ((c : Thread nD τ).loc main_arg7)) := by
  have v1a0 : V1 m ρ c main_arg0 = (m ((c : Thread nD τ).loc main_arg0)) := W1_keep_arg0 m ρ c
  have v1a7 : V1 m ρ c main_arg7 = (m ((c : Thread nD τ).loc main_arg7)) := W1_keep_arg7 m ρ c
  refine (W2_arr m ρ c 4).trans ((final0_4 (V1 m ρ) c).trans ?_)
  rw [v1a0, v1a7]
  exact (Cert.RefStages.v52_eq _ _).symm

/-! ## The first aggregate, and the second region's other arrays -/

theorem agg1 : V3 m ρ c main_v45 = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg9)) (m ((c : Thread nD τ).loc main_arg10)) (m ((c : Thread nD τ).loc main_arg11)) (m ((c : Thread nD τ).loc main_arg12)) := by
  show W3 m ρ c (Proc.devRef .tc main_v45) = _
  rw [W3_v45, xt1, src2, dst2, w2a2, w2a3, w2a9, w2a10, w2a11, w2a12, Cert.Gate.kAlpha_eq_v38]
  rfl

theorem root1' : V3 m ρ c main_v4_1 = val_main_v52 (F := Ideal) (m ((c : Thread nD τ).loc main_arg0)) (m ((c : Thread nD τ).loc main_arg7)) := (W3_keep_v4_1 m ρ c).trans (root1 m ρ c)
theorem drop1 : V3 m ρ c main_arg4 = (m ((c : Thread nD τ).loc main_arg4)) := (W3_keep_arg4 m ρ c).trans (w2a4 m ρ c)
theorem w13 : V3 m ρ c main_arg13 = (m ((c : Thread nD τ).loc main_arg13)) := (W3_keep_arg13 m ρ c).trans (w2a13 m ρ c)
theorem w14 : V3 m ρ c main_arg14 = (m ((c : Thread nD τ).loc main_arg14)) := (W3_keep_arg14 m ρ c).trans (w2a14 m ρ c)
theorem b1 (q : Fin 256) : V3 m ρ c main_v46 (ix2 (0 : Fin 1) q) = (m ((c : Thread nD τ).loc main_arg8)) (ix1 q) := by
  show W3 m ρ c (Proc.devRef .tc main_v46) (ix2 (0 : Fin 1) q) = _
  rw [W3_v46, w2a8]
  exact shapeCast_a_1a_apply _ _ 0 q

/-! ## The second region: the two products of the first epilogue array -/

theorem xt2 : W4 m ρ c (Proc.devRef .tc main_v47_0) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W4_arr m ρ c 6).trans ((final1_6 (V3 m ρ) c (m ((c : Thread nD τ).loc main_arg8)) (b1 m ρ c)).trans ?_)
  rw [agg1, root1', drop1, w13, Cert.RefStages.v84_eq, Cert.RefStages.v58_eq]

theorem root2 : W4 m ρ c (Proc.devRef .tc main_v47_1) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg14)) := by
  refine (W4_arr m ρ c 7).trans ((final1_7 (V3 m ρ) c (m ((c : Thread nD τ).loc main_arg8)) (b1 m ρ c)).trans ?_)
  rw [agg1, root1', drop1, w14, Cert.RefStages.v97_eq, Cert.RefStages.v58_eq]

/-! ## The second aggregate, and the last region's other arrays -/

theorem agg2 : V5 m ρ c main_v88 = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) (m ((c : Thread nD τ).loc main_arg17)) (m ((c : Thread nD τ).loc main_arg18)) (m ((c : Thread nD τ).loc main_arg19)) := by
  show W5 m ρ c (Proc.devRef .tc main_v88) = _
  rw [W5_v88, xt2, src4, dst4, w4a2, w4a3, w4a16, w4a17, w4a18, w4a19, Cert.Gate.kAlpha_eq_v83]
  rfl

theorem root2' : V5 m ρ c main_v47_1 = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg14)) := (W5_keep_v47_1 m ρ c).trans (root2 m ρ c)
theorem drop2 : V5 m ρ c main_arg5 = (m ((c : Thread nD τ).loc main_arg5)) := (W5_keep_arg5 m ρ c).trans (w4a5 m ρ c)
theorem b2 (q : Fin 9) : V5 m ρ c main_v89 (ix2 (0 : Fin 1) q) = (m ((c : Thread nD τ).loc main_arg15)) (ix1 q) := by
  show W5 m ρ c (Proc.devRef .tc main_v89) (ix2 (0 : Fin 1) q) = _
  rw [W5_v89, w4a15]
  exact shapeCast_a_1a_apply _ _ 0 q

/-! ## The last region: the result -/

theorem kernel_value : W6 m ρ c (Proc.devRef .tc main_v90) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W6_arr m ρ c 4).trans ((final2_4 (V5 m ρ) c (m ((c : Thread nD τ).loc main_arg15)) (b2 m ρ c)).trans ?_)
  rw [agg2, root2', drop2, Cert.RefStages.v103_eq]

end Cert.KernelIdeal.Whole

end
-- ==== Proof.lean ====
/-
  Two edge-gated relational graph-convolution layers with inverted dropout and a clamp at zero, computed two ways, are one
  function of the inputs on the extended reals.

  The reference computes, per layer, a per-edge gate (a logistic function of a 200-term contraction of the edge's two
  gathered embedding rows with a weight column, plus a bias), the product of the node array with a message weight matrix,
  the gated rows gathered at the edge sources and scatter-added at the edge destinations, the product with a root weight
  matrix and a bias added, the dropout factor applied and the result clamped below at zero.
  The kernel computes the two products of a layer in a region of 25 row blocks of 2000 nodes, the gate from the two
  100-term halves of the contraction taken once per table row and gathered per edge, the same gather and scatter-add, and
  fuses the first layer's epilogue with the second layer's products in a second region, the last epilogue in a third.
  The products agree because a product's row depends on the same row of its left factor only and the row blocks tile the
  rows; the gates agree because a 200-term sum is the sum of its two halves (no finiteness is needed); every other
  operation is the same operation applied to equal arrays; the changes of float format are the identity on the extended
  reals, and the same binary32 words for 0.4 and 5/3 stand on both sides.

  The kernel's run with every buffer named, the three regions' arrays, the boundary contents and the gate law are the
  modules imported below; the reference's run and its stages read at an index are generated modules.
-/
import proofs.«144004_j57767310131498_2_alg».proof.Defs
import proofs.«144004_j57767310131498_2_alg».proof.Proof.Gen.Kernel
import proofs.«144004_j57767310131498_2_alg».proof.Proof.Gen.Kernel.Skeleton
import proofs.«144004_j57767310131498_2_alg».proof.Proof.Gen.Kernel.Launch
import proofs.«144004_j57767310131498_2_alg».proof.Proof.Gen.Kernel.Points
import proofs.«144004_j57767310131498_2_alg».proof.Proof.Gen.Kernel.Frame
import proofs.«144004_j57767310131498_2_alg».proof.Proof.Gen.KernelIdeal
import proofs.«144004_j57767310131498_2_alg».proof.Proof.Gen.KernelIdeal.Skeleton
import proofs.«144004_j57767310131498_2_alg».proof.Proof.Gen.KernelIdeal.Launch
import proofs.«144004_j57767310131498_2_alg».proof.Proof.Gen.KernelIdeal.Points
import proofs.«144004_j57767310131498_2_alg».proof.Proof.Gen.KernelIdeal.Frame
import proofs.«144004_j57767310131498_2_alg».proof.Proof.Gen.ReferenceIdeal
import proofs.«144004_j57767310131498_2_alg».proof.Proof.Gen.ReferenceIdeal.Run
import proofs.«144004_j57767310131498_2_alg».proof.Proof.Gen.ReferenceIdeal.Read
import proofs.«144004_j57767310131498_2_alg».proof.Proof.Gen.Pre_finite_inputs
import proofs.«144004_j57767310131498_2_alg».proof.Proof.KernelRun
import proofs.«144004_j57767310131498_2_alg».proof.Proof.KernelValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the reference's last stage of the launch arrays in their result buffer. -/
theorem algebraic : Cert.algebraic_KernelIdeal_ReferenceIdeal := by
  intro m ρ m' ρ' _ hagree
  refine ⟨fun c => Cert.ReferenceIdeal.Read.val_main_v103 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono (fun r h c =>
      ⟨(h c _ (Cert.KernelIdeal.Gen.mem_uc Cert.KernelIdeal.main_v90 (by decide))).trans (Cert.KernelIdeal.Whole.kernel_value m ρ c),
       (h c _ (Cert.KernelIdeal.Gen.mem_uc Cert.KernelIdeal.main_arg0 (by decide))).trans (Cert.KernelIdeal.Gen.W6_main_arg0 m ρ c),
       (h c _ (Cert.KernelIdeal.Gen.mem_uc Cert.KernelIdeal.main_arg1 (by decide))).trans (Cert.KernelIdeal.Gen.W6_main_arg1 m ρ c),
       (h c _ (Cert.KernelIdeal.Gen.mem_uc Cert.KernelIdeal.main_arg2 (by decide))).trans (Cert.KernelIdeal.Gen.W6_main_arg2 m ρ c),
       (h c _ (Cert.KernelIdeal.Gen.mem_uc Cert.KernelIdeal.main_arg3 (by decide))).trans (Cert.KernelIdeal.Gen.W6_main_arg3 m ρ c),
       (h c _ (Cert.KernelIdeal.Gen.mem_uc Cert.KernelIdeal.main_arg4 (by decide))).trans (Cert.KernelIdeal.Gen.W6_main_arg4 m ρ c),
       (h c _ (Cert.KernelIdeal.Gen.mem_uc Cert.KernelIdeal.main_arg5 (by decide))).trans (Cert.KernelIdeal.Gen.W6_main_arg5 m ρ c),
       (h c _ (Cert.KernelIdeal.Gen.mem_uc Cert.KernelIdeal.main_arg6 (by decide))).trans (Cert.KernelIdeal.Gen.W6_main_arg6 m ρ c),
       (h c _ (Cert.KernelIdeal.Gen.mem_uc Cert.KernelIdeal.main_arg7 (by decide))).trans (Cert.KernelIdeal.Gen.W6_main_arg7 m ρ c),
       (h c _ (Cert.KernelIdeal.Gen.mem_uc Cert.KernelIdeal.main_arg8 (by decide))).trans (Cert.KernelIdeal.Gen.W6_main_arg8 m ρ c),
       (h c _ (Cert.KernelIdeal.Gen.mem_uc Cert.KernelIdeal.main_arg9 (by decide))).trans (Cert.KernelIdeal.Gen.W6_main_arg9 m ρ c),
       (h c _ (Cert.KernelIdeal.Gen.mem_uc Cert.KernelIdeal.main_arg10 (by decide))).trans (Cert.KernelIdeal.Gen.W6_main_arg10 m ρ c),
       (h c _ (Cert.KernelIdeal.Gen.mem_uc Cert.KernelIdeal.main_arg11 (by decide))).trans (Cert.KernelIdeal.Gen.W6_main_arg11 m ρ c),
       (h c _ (Cert.KernelIdeal.Gen.mem_uc Cert.KernelIdeal.main_arg12 (by decide))).trans (Cert.KernelIdeal.Gen.W6_main_arg12 m ρ c),
       (h c _ (Cert.KernelIdeal.Gen.mem_uc Cert.KernelIdeal.main_arg13 (by decide))).trans (Cert.KernelIdeal.Gen.W6_main_arg13 m ρ c),
       (h c _ (Cert.KernelIdeal.Gen.mem_uc Cert.KernelIdeal.main_arg14 (by decide))).trans (Cert.KernelIdeal.Gen.W6_main_arg14 m ρ c),
       (h c _ (Cert.KernelIdeal.Gen.mem_uc Cert.KernelIdeal.main_arg15 (by decide))).trans (Cert.KernelIdeal.Gen.W6_main_arg15 m ρ c),
       (h c _ (Cert.KernelIdeal.Gen.mem_uc Cert.KernelIdeal.main_arg16 (by decide))).trans (Cert.KernelIdeal.Gen.W6_main_arg16 m ρ c),
       (h c _ (Cert.KernelIdeal.Gen.mem_uc Cert.KernelIdeal.main_arg17 (by decide))).trans (Cert.KernelIdeal.Gen.W6_main_arg17 m ρ c),
       (h c _ (Cert.KernelIdeal.Gen.mem_uc Cert.KernelIdeal.main_arg18 (by decide))).trans (Cert.KernelIdeal.Gen.W6_main_arg18 m ρ c),
       (h c _ (Cert.KernelIdeal.Gen.mem_uc Cert.KernelIdeal.main_arg19 (by decide))).trans (Cert.KernelIdeal.Gen.W6_main_arg19 m ρ c)⟩)
      (Cert.KernelIdeal.Whole.run_all m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8, g9, g10, g11, g12, g13, g14, g15, g16, g17, g18, g19⟩ := hagree c
    rw [Cert.ReferenceIdeal.Read.val_main_v103_eq, g0, g1, g2, g3, g4, g5, g6, g7, g8, g9, g10, g11, g12, g13, g14, g15, g16, g17, g18, g19]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
